-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x1024 : Shape := ⟨2, ![1024, 1024]⟩
abbrev S1024x3072 : Shape := ⟨2, ![1024, 3072]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩

abbrev nBuf : Space → Nat
  | .hbm => 20
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x3072, .f32⟩
  | .hbm, ⟨10, _⟩ => ⟨S4096x1024, .f32⟩
  | .hbm, ⟨11, _⟩ => ⟨S4096x1024, .bf16⟩
  | .hbm, ⟨12, _⟩ => ⟨S1024x3072, .bf16⟩
  | .hbm, ⟨13, _⟩ => ⟨S4096x3072, .bf16⟩
  | .hbm, ⟨14, _⟩ => ⟨S2x2048x3072, .bf16⟩
  | .hbm, ⟨15, _⟩ => ⟨S2x2048x1024, .bf16⟩
  | .hbm, ⟨16, _⟩ => ⟨S4096x1024, .bf16⟩
  | .hbm, ⟨17, _⟩ => ⟨S1024x1024, .bf16⟩
  | .hbm, ⟨18, _⟩ => ⟨S4096x1024, .f32⟩
  | .hbm, ⟨19, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x512x128, .bf16⟩
  | .local _ .vmem, ⟨6, _⟩ => ⟨S1x512x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x512x128, .bf16⟩
  | .local _ .vmem, ⟨12, _⟩ => ⟨S1x512x128, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  shapeCasts_S2x2048x1024_S4096x1024 : S2x2048x1024.ShapeCasts S4096x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3072 : S4096x3072.ShapeCasts S2x2048x3072
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  shapeCasts_S512x64_S1x512x64 : S512x64.ShapeCasts S1x512x64
  packedbf16_S1x512x128_S1x512x64_0_0_0 : (Rect.unit (s := S1x512x128) ![0, 0, 0] S1x512x64.size inb_S1x512x128_S1x512x64_0_0_0).PackedRows (EltTy.packing .bf16)
  slices_S512x128_o0_64_S512x64 : S512x128.Slices ![0, 64] S512x64
  slices_S2048x128_o0_64_S2048x64 : S2048x128.Slices ![0, 64] S2048x64
  inb_S1x512x128_S1x512x64_0_0_64 : ∀ a, (![0, 0, 64] : Fin 3 → Nat) a + S1x512x64.size a ≤ S1x512x128.size a
  packedbf16_S1x512x128_S1x512x64_0_0_64 : (Rect.unit (s := S1x512x128) ![0, 0, 64] S1x512x64.size inb_S1x512x128_S1x512x64_0_0_64).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .bf16 = 32 ∨ (Rect.block (s := S4096x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x3072.size a
  hwx1_0 : ∀ i : grid1.Coords, EltTy.bits .bf16 = 32 ∨ (Rect.block (s := S2x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x3072.size a
  hwx1_1 : ∀ i : grid1.Coords, EltTy.bits .bf16 = 32 ∨ (Rect.block (s := S2x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x3072.size a
  hwx1_2 : ∀ i : grid1.Coords, EltTy.bits .bf16 = 32 ∨ (Rect.block (s := S2x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x2048x1024.size a
  hwx1_3 : ∀ i : grid1.Coords, EltTy.bits .bf16 = 32 ∨ (Rect.block (s := S2x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x2048x1024, .f32⟩
  | .hbm, ⟨6, _⟩ => ⟨S2x2048x16x64, .f32⟩
  | .hbm, ⟨7, _⟩ => ⟨S2x16x2048x64, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  h_S_ : 0 < S_.numel
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KRegion0.lean ====
/-
  The first projection kernel (x · [Wq | Wk | Wv]ᵀ, one 512-row block of x per grid point against the whole
  weight matrix), at the buffer contents `V` the region is entered with: each window's block at a point, what
  the body leaves in the output's staging buffer as a function of the two input blocks, the body's run, and the
  pipeline's proof data with its body obligation.
-/
import proofs.«176619_j57303453663372_2_alg».proof.Proof.Gen.Kernel.Launch
import proofs.«176619_j57303453663372_2_alg».proof.Proof.Gen.Kernel.Skeleton
import proofs.«176619_j57303453663372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block of x is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_o : Rect S512x3072 := Rect.unit (s := S512x3072) ![0, 0] S512x3072.size inb_S512x3072_S512x3072_0_0

/-- The output's staging buffer after the body: its one store, of the product of the two loaded blocks. -/
def out0_2 (x0 : Vec F S512x1024 .bf16) (x1 : Vec F S1024x3072 .bf16) : Vec F S512x3072 .bf16 :=
  View.canon [⟨r0_o, k0_pay1 (View.ld x0 r0_x) (View.ld x1 r0_w)⟩]

/-- The store covers the buffer. -/
theorem cover0_2 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

set_option maxHeartbeats 1000000 in
/-- The body on whole staging memrefs: the two inputs' contents are left as they were, the output's buffer ends at
    `out0_2` of them. -/
theorem sound_kernel0 (c : Dev nD) (E : Set ℕ) (i : grid0.Coords) (arg1 : Memref sig .tc .vmem S512x1024 .bf16) (harg1 : arg1.IsWhole)
    (arg2 : Memref sig .tc .vmem S1024x3072 .bf16) (harg2 : arg2.IsWhole) (arg3 : Memref sig .tc .vmem S512x3072 .bf16) (harg3 : arg3.IsWhole)
    (x0 : Vec F S512x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body each input's
    buffer at its block and the output's at `out0_2` of the input blocks; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The attention kernel (one pair of heads and one 512-row block of queries per grid point), at the buffer contents
  `V` the region is entered with. Its three input windows read ONE array — the projections [2, 2048, 3072], whose
  column blocks 0–7 are Q, 8–15 are K and 16–23 are V — so the core's full share of that array is divided among
  them: the left half to the query window, the two halves of the right half to the key and value windows. The body
  writes its [1, 512, 128] output block by two stores, one per head of the pair, into the block's two 64-lane halves.
-/
import proofs.«176619_j57303453663372_2_alg».proof.Proof.Gen.Kernel.Launch
import proofs.«176619_j57303453663372_2_alg».proof.Proof.Gen.Kernel.Skeleton
import proofs.«176619_j57303453663372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key block, fetched when the batch or the head pair changes, is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value block likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0
abbrev r1_lo : Rect S1x512x128 := Rect.unit (s := S1x512x128) ![0, 0, 0] S1x512x64.size inb_S1x512x128_S1x512x64_0_0_0
abbrev r1_hi : Rect S1x512x128 := Rect.unit (s := S1x512x128) ![0, 0, 64] S1x512x64.size inb_S1x512x128_S1x512x64_0_0_64

/-- The output's staging buffer after the body: its two stores as pieces, last first — lanes 64–127 hold the second
    head's context, lanes 0–63 the first head's. -/
def out1_3 (x0 : Vec F S1x512x128 .bf16) (x1 x2 : Vec F S1x2048x128 .bf16) : Vec F S1x512x128 .bf16 :=
  View.canon [⟨r1_hi, k1_pay1 (k1_pay6 (View.ld x2 r1_kv)) (k1_pay7 (View.ld x0 r1_q) (View.ld x1 r1_kv))⟩,
    ⟨r1_lo, k1_pay5 (View.ld x0 r1_q) (View.ld x1 r1_kv) (View.ld x2 r1_kv)⟩]

/-- The two half-width stores tile the buffer. -/
theorem cover1_3 (p1 p0 : Vec F S1x512x64 .bf16) (y : S1x512x128.Idx) :
    ∃ pc ∈ ([⟨r1_hi, p1⟩, ⟨r1_lo, p0⟩] : List (View.Piece (Elt F) S1x512x128 .bf16)), y ∈ pc.1.set :=
  View.cover_of_tiled [⟨r1_hi, p1⟩, ⟨r1_lo, p0⟩] S1x512x64.size (by rfl) y

set_option maxHeartbeats 2000000 in
/-- The body on whole staging memrefs: the three inputs' contents are left as they were, the output's buffer ends at
    `out1_3` of them. -/
theorem sound_kernel1 (c : Dev nD) (E : Set ℕ) (i : grid1.Coords) (arg3 : Memref sig .tc .vmem S1x512x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x512x128 .bf16) (harg6 : arg6.IsWhole)
    (x0 : Vec F S1x512x128 .bf16) (x1 x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- The proof data of this pipeline on core `c`: the arrays as the region finds them; after the body each input's
    buffer at its block and the output's at `out1_3` of the input blocks; the projections' array shared among the
    three input windows; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  The output projection kernel (ctx · Woᵀ, one 512-row block of the context per grid point against the whole
  weight matrix), at the buffer contents `V` the region is entered with: each window's block at a point, what
  the body leaves in the output's staging buffer as a function of the two input blocks, the body's run, and the
  pipeline's proof data with its body obligation.
-/
import proofs.«176619_j57303453663372_2_alg».proof.Proof.Gen.Kernel.Launch
import proofs.«176619_j57303453663372_2_alg».proof.Proof.Gen.Kernel.Skeleton
import proofs.«176619_j57303453663372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows block of the context is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix, fetched once, is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0

/-- The output's staging buffer after the body: its one store, of the product of the two loaded blocks. -/
def out2_2 (x0 : Vec F S512x1024 .bf16) (x1 : Vec F S1024x1024 .bf16) : Vec F S512x1024 .f32 :=
  View.canon [⟨r2_x, k2_pay1 (View.ld x0 r2_x) (View.ld x1 r2_w)⟩]

/-- The store covers the buffer. -/
theorem cover2_2 (p0 : Vec F S512x1024 .f32) (y : S512x1024.Idx) :
    ∃ pc ∈ ([⟨r2_x, p0⟩] : List (View.Piece (Elt F) S512x1024 .f32)), y ∈ pc.1.set :=
  View.cover_of_tiled [⟨r2_x, p0⟩] S512x1024.size (by rfl) y

set_option maxHeartbeats 1000000 in
/-- The body on whole staging memrefs: the two inputs' contents are left as they were, the output's buffer ends at
    `out2_2` of them. -/
theorem sound_kernel2 (c : Dev nD) (E : Set ℕ) (i : grid2.Coords) (arg1 : Memref sig .tc .vmem S512x1024 .bf16) (harg1 : arg1.IsWhole)
    (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core `c`: the arrays as the region finds them; after the body each input's
    buffer at its block and the output's at `out2_2` of the input blocks; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRunA.lean ====
/-
  The whole run of the program: three kernel regions among four stretches of host operations.

  The buffer contents at each boundary are a fold from the launch memory: a host stretch applies its operations, a
  region replaces its output array by what its write-backs leave and changes nothing else. Each region is entered
  from "every unscoped buffer at the boundary's contents, the generator register at some state, nothing owed" and
  left in the same form at the next boundary's contents. At the end every unscoped buffer is read against the last
  boundary's contents, which gives both the arguments unchanged and the result array's value.
-/
import proofs.«176619_j57303453663372_2_alg».proof.Proof.Gen.Kernel.Launch
import proofs.«176619_j57303453663372_2_alg».proof.Proof.Gen.Kernel.Skeleton
import proofs.«176619_j57303453663372_2_alg».proof.Proof.Gen.Kernel.Points
import proofs.«176619_j57303453663372_2_alg».proof.Proof.KRegion0
import proofs.«176619_j57303453663372_2_alg».proof.Proof.KRegion1
import proofs.«176619_j57303453663372_2_alg».proof.Proof.KRegion2
import proofs.«176619_j57303453663372_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the transposed, concatenated and narrowed weights; x flattened and narrowed). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first projection kernel: its output array at what the write-backs leave. -/
def W2 (c : Dev nD) : Valuation τ sig (Elt F) :=
  Function.update (W1 m ρ c) (Proc.devRef .tc main_v8) (show Buf (Elt F) ((c : Thread nD τ).loc main_v8) from (dat0 (V1 m ρ) c).arrAt 2 cfg0.N)
abbrev V2 : (c : Dev nD) → (b : Ref sig .tc) → Buf (Elt F) ((c : Thread nD τ).loc b) := fun c b => W2 m ρ c b
/-- After the reshape of the projections to [2, 2048, 3072]. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention kernel: the context array at what the write-backs leave. -/
def W4 (c : Dev nD) : Valuation τ sig (Elt F) :=
  Function.update (W3 m ρ c) (Proc.devRef .tc main_v10) (show Buf (Elt F) ((c : Thread nD τ).loc main_v10) from (dat1 (V3 m ρ) c).arrAt 3 cfg1.N)
abbrev V4 : (c : Dev nD) → (b : Ref sig .tc) → Buf (Elt F) ((c : Thread nD τ).loc b) := fun c b => W4 m ρ c b
/-- After the context is flattened and the output weights narrowed. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the output projection kernel. -/
def W6 (c : Dev nD) : Valuation τ sig (Elt F) :=
  Function.update (W5 m ρ c) (Proc.devRef .tc main_v13) (show Buf (Elt F) ((c : Thread nD τ).loc main_v13) from (dat2 (V5 m ρ) c).arrAt 2 cfg2.N)
abbrev V6 : (c : Dev nD) → (b : Ref sig .tc) → Buf (Elt F) ((c : Thread nD τ).loc b) := fun c b => W6 m ρ c b
/-- After the last reshape: the end of the program. -/
abbrev W7 : Dev nD → Valuation τ sig (Elt F) := fun c => StableHlo.after hostOps3 (W6 m ρ c)

theorem W2_of_ne (c : Dev nD) (b : Ref sig .tc) (h : b ≠ main_v8) : W2 m ρ c (Proc.devRef .tc b) = W1 m ρ c (Proc.devRef .tc b) := by
  unfold W2; exact Function.update_of_ne (StableHlo.devRef_ne_of_ne h) _ _
theorem W4_of_ne (c : Dev nD) (b : Ref sig .tc) (h : b ≠ main_v10) : W4 m ρ c (Proc.devRef .tc b) = W3 m ρ c (Proc.devRef .tc b) := by
  unfold W4; exact Function.update_of_ne (StableHlo.devRef_ne_of_ne h) _ _
theorem W6_of_ne (c : Dev nD) (b : Ref sig .tc) (h : b ≠ main_v13) : W6 m ρ c (Proc.devRef .tc b) = W5 m ρ c (Proc.devRef .tc b) := by
  unfold W6; exact Function.update_of_ne (StableHlo.devRef_ne_of_ne h) _ _
theorem W2_out (c : Dev nD) : W2 m ρ c (Proc.devRef .tc main_v8) = (dat0 (V1 m ρ) c).arrAt 2 cfg0.N := by
  unfold W2; exact Function.update_self _ _ _
theorem W4_out (c : Dev nD) : W4 m ρ c (Proc.devRef .tc main_v10) = (dat1 (V3 m ρ) c).arrAt 3 cfg1.N := by
  unfold W4; exact Function.update_self _ _ _
theorem W6_out (c : Dev nD) : W6 m ρ c (Proc.devRef .tc main_v13) = (dat2 (V5 m ρ) c).arrAt 2 cfg2.N := by
  unfold W6; exact Function.update_self _ _ _

/-! ## The proof data family and the thread state -/

abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The first projection kernel: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N)
      (fun w => match w with
        | ⟨0, _⟩ => (((dat0 (V1 m ρ) c).arrAt_in 0 rfl _).trans (A_eq0 (V1 m ρ) c 0)).trans (W2_of_ne m ρ c main_v6 (by decide)).symm
        | ⟨1, _⟩ => (((dat0 (V1 m ρ) c).arrAt_in 1 rfl _).trans (A_eq0 (V1 m ρ) c 1)).trans (W2_of_ne m ρ c main_v7 (by decide)).symm
        | ⟨2, _⟩ => (W2_out m ρ c).symm)
      (fun b hb => W2_of_ne m ρ c b fun h => hb (h ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection kernel: entered at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N)
      (fun w => match w with
        | ⟨0, _⟩ => (((dat2 (V5 m ρ) c).arrAt_in 0 rfl _).trans (A_eq2 (V5 m ρ) c 0)).trans (W6_of_ne m ρ c main_v11 (by decide)).symm
        | ⟨1, _⟩ => (((dat2 (V5 m ρ) c).arrAt_in 1 rfl _).trans (A_eq2 (V5 m ρ) c 1)).trans (W6_of_ne m ρ c main_v12 (by decide)).symm
        | ⟨2, _⟩ => (W6_out m ρ c).symm)
      (fun b hb => W6_of_ne m ρ c b fun h => hb (h ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunB.lean ====
/-
  The attention region as a segment of the run. Its three input windows read one array, so at entry the core's
  full share of that array is cut in three (left half; the two halves of the right half), one piece per window, and
  at exit the three pieces — the contents unchanged, since input windows write nothing back — are joined into the
  full share again; the output array goes in and comes out at the full share.
-/
import proofs.«176619_j57303453663372_2_alg».proof.Proof.Gen.Kernel.Launch
import proofs.«176619_j57303453663372_2_alg».proof.Proof.Gen.Kernel.Skeleton
import proofs.«176619_j57303453663372_2_alg».proof.Proof.Gen.Kernel.Points
import proofs.«176619_j57303453663372_2_alg».proof.Proof.KRunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the four windows' arrays: the projections and the context. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v9) ↦{fullShare} V main_v9) ∗ (((c : Thread nD τ).loc main_v10) ↦{fullShare} V main_v10)) := by
  unfold Pipeline.arrBufs
  exact bigSep_eq_bigSepL_of_eq [main_v9, main_v10] (by decide) (by decide) _

/-- The pipeline's arrays, window by window, each at its share. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v9) ↦{fullShare.left} G 0) ∗ (((c : Thread nD τ).loc main_v9) ↦{fullShare.right.left} G 1)
          ∗ (((c : Thread nD τ).loc main_v9) ↦{fullShare.right.right} G 2) ∗ (((c : Thread nD τ).loc main_v10) ↦{fullShare} G 3)) := by
  unfold Dat.arrays
  rw [bigSep_W1]
  simp only [show (cfg1.win 0).arr.view.set = Finset.univ from (arr_whole1 0).set_eq_univ,
    show (cfg1.win 1).arr.view.set = Finset.univ from (arr_whole1 1).set_eq_univ,
    show (cfg1.win 2).arr.view.set = Finset.univ from (arr_whole1 2).set_eq_univ,
    show (cfg1.win 3).arr.view.set = Finset.univ from (arr_whole1 3).set_eq_univ]
  rfl

/-- ENTRY: the two buffers at the full share make the four windows' arrays at their entry contents. -/
theorem arrays1_entry (c : Dev nD) (V : (c : Dev nD) → (b : Ref sig .tc) → Buf (Elt F) ((c : Thread nD τ).loc b)) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  show iprop((((c : Thread nD τ).loc main_v9) ↦{fullShare} V c main_v9) ∗ (((c : Thread nD τ).loc main_v10) ↦{fullShare} V c main_v10))
    ⊢ (iprop((((c : Thread nD τ).loc main_v9) ↦{fullShare.left} V c main_v9) ∗ (((c : Thread nD τ).loc main_v9) ↦{fullShare.right.left} V c main_v9)
          ∗ (((c : Thread nD τ).loc main_v9) ↦{fullShare.right.right} V c main_v9) ∗ (((c : Thread nD τ).loc main_v10) ↦{fullShare} V c main_v10)) : sProp 𝕄)
  iintro ⟨H9, H10⟩
  ihave H := (pointsTo_share (PosShare.mem_left_op_right fullShare)).1 $$ H9
  icases H with ⟨Hl, Hr⟩
  ihave H' := (pointsTo_share (PosShare.mem_left_op_right fullShare.right)).1 $$ Hr
  icases H' with ⟨Hrl, Hrr⟩
  isplitl [Hl]; · iexact Hl
  isplitl [Hrl]; · iexact Hrl
  isplitl [Hrr]; · iexact Hrr
  iexact H10

/-- EXIT: the four windows' arrays at their final contents make the two buffers at the full share, at any contents
    `V'` that keep the projections and hold the context's write-backs. -/
theorem arrays1_exit (c : Dev nD) (V : (c : Dev nD) → (b : Ref sig .tc) → Buf (Elt F) ((c : Thread nD τ).loc b))
    (V' : (b : Ref sig .tc) → Buf (Elt F) ((c : Thread nD τ).loc b)) (h9 : V' main_v9 = V c main_v9)
    (h10 : V' main_v10 = (dat1 V c).arrAt 3 cfg1.N) :
    ((dat1 V c).arrays ((dat1 V c).arrAt · cfg1.N) : sProp 𝕄)
      ⊢ Pipeline.arrBufs (Ix := Unit) (Name := ℕ) (U := UR sig nD τ) (Lvl := ℕ) spec1 c V' := by
  rw [arrBufs1_eq, arrays1_eq, h9, h10]
  rw [(dat1 V c).arrAt_in 0 rfl, (dat1 V c).arrAt_in 1 rfl, (dat1 V c).arrAt_in 2 rfl]
  show (iprop((((c : Thread nD τ).loc main_v9) ↦{fullShare.left} V c main_v9) ∗ (((c : Thread nD τ).loc main_v9) ↦{fullShare.right.left} V c main_v9)
          ∗ (((c : Thread nD τ).loc main_v9) ↦{fullShare.right.right} V c main_v9) ∗ (((c : Thread nD τ).loc main_v10) ↦{fullShare} (dat1 V c).arrAt 3 cfg1.N)) : sProp 𝕄)
    ⊢ iprop((((c : Thread nD τ).loc main_v9) ↦{fullShare} V c main_v9) ∗ (((c : Thread nD τ).loc main_v10) ↦{fullShare} (dat1 V c).arrAt 3 cfg1.N))
  iintro ⟨Hl, Hrl, Hrr, H10⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H10

set_option backward.isDefEq.respectTransparency.types false in
/-- The attention kernel: entered at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) := by
      rw [Pipeline.unscopedBufs_split₀ (cfgs) 1 winFacts₀1.arr_unscoped c (V3 m ρ c)]
      exact sep_mono (arrays1_entry c (V3 m ρ)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := by
      rw [Pipeline.unscopedBufs_split₀ (cfgs) 1 winFacts₀1.arr_unscoped c (V4 m ρ c)]
      refine sep_mono (arrays1_exit c (V3 m ρ) (V4 m ρ c) (W4_of_ne m ρ c main_v9 (by decide)) (W4_out m ρ c)) (Entails.of_eq ?_)
      unfold Pipeline.unscopedRest
      exact bigSep_congr fun b hb => by
        rw [show V4 m ρ c b = V3 m ρ c b from W4_of_ne m ρ c b fun h =>
          (Finset.mem_sdiff.mp hb).2 (h ▸ Finset.mem_image.mpr ⟨3, Finset.mem_univ _, rfl⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRun.lean ====
/-
  The launch: @main is the run of seven segments (four host stretches, three kernel regions), whose thread states
  chain from the launch memory to the last boundary; every weakly fair execution terminates, and at the end every
  unscoped buffer holds the last boundary's contents. Read at the five arguments this is the frame; read at the result
  array it is the program's value.
-/
import proofs.«176619_j57303453663372_2_alg».proof.Proof.Gen.Kernel.Launch
import proofs.«176619_j57303453663372_2_alg».proof.Proof.Gen.Kernel.Skeleton
import proofs.«176619_j57303453663372_2_alg».proof.Proof.Gen.Kernel.Points
import proofs.«176619_j57303453663372_2_alg».proof.Proof.KRunA
import proofs.«176619_j57303453663372_2_alg».proof.Proof.KRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's seven segments, in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched -/

/-- No host stretch writes an argument and no region's output is one: the fold walks back to the launch memory. -/
theorem W7_of_arg (c : Dev nD) (r : Ref sig .tc) (h0 : r ∉ hostOps0_W) (h1 : r ∉ hostOps1_W) (h2 : r ∉ hostOps2_W) (h3 : r ∉ hostOps3_W)
    (h8 : r ≠ main_v8) (h10 : r ≠ main_v10) (h13 : r ≠ main_v13) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r h13
    _ = W4 m ρ c (Proc.devRef .tc r) := StableHlo.after_of_writes_sub hostOps2 _ hostOps2_writes h2
    _ = W3 m ρ c (Proc.devRef .tc r) := W4_of_ne m ρ c r h10
    _ = W2 m ρ c (Proc.devRef .tc r) := StableHlo.after_of_writes_sub hostOps1 _ hostOps1_writes h1
    _ = W1 m ρ c (Proc.devRef .tc r) := W2_of_ne m ρ c r h8
    _ = W0 m ρ c (Proc.devRef .tc r) := StableHlo.after_of_writes_sub hostOps0 _ hostOps0_writes h0
    _ = m ((c : Thread nD τ).loc r) := rfl

/-- THE FRAME at any float instance, with the result array's value beside it. -/
theorem run_value : θ_run defs (onTc (τ := τ) (main (F := F))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v14 (by decide)),
     (h c _ (mem_uc main_arg0 (by decide))).trans (W7_of_arg m ρ c main_arg0 (by decide) (by decide) (by decide) (by decide) (by decide) (by decide) (by decide)),
     (h c _ (mem_uc main_arg1 (by decide))).trans (W7_of_arg m ρ c main_arg1 (by decide) (by decide) (by decide) (by decide) (by decide) (by decide) (by decide)),
     (h c _ (mem_uc main_arg2 (by decide))).trans (W7_of_arg m ρ c main_arg2 (by decide) (by decide) (by decide) (by decide) (by decide) (by decide) (by decide)),
     (h c _ (mem_uc main_arg3 (by decide))).trans (W7_of_arg m ρ c main_arg3 (by decide) (by decide) (by decide) (by decide) (by decide) (by decide) (by decide)),
     (h c _ (mem_uc main_arg4 (by decide))).trans (W7_of_arg m ρ c main_arg4 (by decide) (by decide) (by decide) (by decide) (by decide) (by decide) (by decide))⟩)
    (run_all m ρ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.Kernel.Hand

end
-- ==== Proof.KIRegion0.lean ====
/-
  The first projection kernel (x · [Wq | Wk | Wv]ᵀ, one 512-row block of x per grid point against the whole
  weight matrix), at the buffer contents `V` the region is entered with: each window's block at a point, what
  the body leaves in the output's staging buffer as a function of the two input blocks, the body's run, and the
  pipeline's proof data with its body obligation.
-/
import proofs.«176619_j57303453663372_2_alg».proof.Proof.Gen.KernelIdeal.Launch
import proofs.«176619_j57303453663372_2_alg».proof.Proof.Gen.KernelIdeal.Skeleton
import proofs.«176619_j57303453663372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block of x is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_o : Rect S512x3072 := Rect.unit (s := S512x3072) ![0, 0] S512x3072.size inb_S512x3072_S512x3072_0_0

/-- The output's staging buffer after the body: its one store, of the product of the two loaded blocks. -/
def out0_2 (x0 : Vec F S512x1024 .bf16) (x1 : Vec F S1024x3072 .bf16) : Vec F S512x3072 .bf16 :=
  View.canon [⟨r0_o, k0_pay1 (View.ld x0 r0_x) (View.ld x1 r0_w)⟩]

/-- The store covers the buffer. -/
theorem cover0_2 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

set_option maxHeartbeats 1000000 in
/-- The body on whole staging memrefs: the two inputs' contents are left as they were, the output's buffer ends at
    `out0_2` of them. -/
theorem sound_kernel0 (c : Dev nD) (E : Set ℕ) (i : grid0.Coords) (arg1 : Memref sig .tc .vmem S512x1024 .bf16) (harg1 : arg1.IsWhole)
    (arg2 : Memref sig .tc .vmem S1024x3072 .bf16) (harg2 : arg2.IsWhole) (arg3 : Memref sig .tc .vmem S512x3072 .bf16) (harg3 : arg3.IsWhole)
    (x0 : Vec F S512x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`: the arrays as the region finds them; after the body each input's
    buffer at its block and the output's at `out0_2` of the input blocks; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  The attention kernel (one pair of heads and one 512-row block of queries per grid point), at the buffer contents
  `V` the region is entered with. Its three input windows read ONE array — the projections [2, 2048, 3072], whose
  column blocks 0–7 are Q, 8–15 are K and 16–23 are V — so the core's full share of that array is divided among
  them: the left half to the query window, the two halves of the right half to the key and value windows. The body
  writes its [1, 512, 128] output block by two stores, one per head of the pair, into the block's two 64-lane halves.
-/
import proofs.«176619_j57303453663372_2_alg».proof.Proof.Gen.KernelIdeal.Launch
import proofs.«176619_j57303453663372_2_alg».proof.Proof.Gen.KernelIdeal.Skeleton
import proofs.«176619_j57303453663372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key block, fetched when the batch or the head pair changes, is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value block likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_q : Rect S1x512x128 := Rect.unit (s := S1x512x128) ![0, 0, 0] S1x512x128.size inb_S1x512x128_S1x512x128_0_0_0
abbrev r1_kv : Rect S1x2048x128 := Rect.unit (s := S1x2048x128) ![0, 0, 0] S1x2048x128.size inb_S1x2048x128_S1x2048x128_0_0_0
abbrev r1_lo : Rect S1x512x128 := Rect.unit (s := S1x512x128) ![0, 0, 0] S1x512x64.size inb_S1x512x128_S1x512x64_0_0_0
abbrev r1_hi : Rect S1x512x128 := Rect.unit (s := S1x512x128) ![0, 0, 64] S1x512x64.size inb_S1x512x128_S1x512x64_0_0_64

/-- The output's staging buffer after the body: its two stores as pieces, last first — lanes 64–127 hold the second
    head's context, lanes 0–63 the first head's. -/
def out1_3 (x0 : Vec F S1x512x128 .bf16) (x1 x2 : Vec F S1x2048x128 .bf16) : Vec F S1x512x128 .bf16 :=
  View.canon [⟨r1_hi, k1_pay1 (k1_pay6 (View.ld x2 r1_kv)) (k1_pay7 (View.ld x0 r1_q) (View.ld x1 r1_kv))⟩,
    ⟨r1_lo, k1_pay5 (View.ld x0 r1_q) (View.ld x1 r1_kv) (View.ld x2 r1_kv)⟩]

/-- The two half-width stores tile the buffer. -/
theorem cover1_3 (p1 p0 : Vec F S1x512x64 .bf16) (y : S1x512x128.Idx) :
    ∃ pc ∈ ([⟨r1_hi, p1⟩, ⟨r1_lo, p0⟩] : List (View.Piece (Elt F) S1x512x128 .bf16)), y ∈ pc.1.set :=
  View.cover_of_tiled [⟨r1_hi, p1⟩, ⟨r1_lo, p0⟩] S1x512x64.size (by rfl) y

set_option maxHeartbeats 2000000 in
/-- The body on whole staging memrefs: the three inputs' contents are left as they were, the output's buffer ends at
    `out1_3` of them. -/
theorem sound_kernel1 (c : Dev nD) (E : Set ℕ) (i : grid1.Coords) (arg3 : Memref sig .tc .vmem S1x512x128 .bf16) (harg3 : arg3.IsWhole)
    (arg4 : Memref sig .tc .vmem S1x2048x128 .bf16) (harg4 : arg4.IsWhole) (arg5 : Memref sig .tc .vmem S1x2048x128 .bf16) (harg5 : arg5.IsWhole)
    (arg6 : Memref sig .tc .vmem S1x512x128 .bf16) (harg6 : arg6.IsWhole)
    (x0 : Vec F S1x512x128 .bf16) (x1 x2 : Vec F S1x2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _)

/-- The proof data of this pipeline on core `c`: the arrays as the region finds them; after the body each input's
    buffer at its block and the output's at `out1_3` of the input blocks; the projections' array shared among the
    three input windows; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
/-
  The output projection kernel (ctx · Woᵀ, one 512-row block of the context per grid point against the whole
  weight matrix), at the buffer contents `V` the region is entered with: each window's block at a point, what
  the body leaves in the output's staging buffer as a function of the two input blocks, the body's run, and the
  pipeline's proof data with its body obligation.
-/
import proofs.«176619_j57303453663372_2_alg».proof.Proof.Gen.KernelIdeal.Launch
import proofs.«176619_j57303453663372_2_alg».proof.Proof.Gen.KernelIdeal.Skeleton
import proofs.«176619_j57303453663372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows block of the context is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix, fetched once, is in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0

/-- The output's staging buffer after the body: its one store, of the product of the two loaded blocks. -/
def out2_2 (x0 : Vec F S512x1024 .bf16) (x1 : Vec F S1024x1024 .bf16) : Vec F S512x1024 .f32 :=
  View.canon [⟨r2_x, k2_pay1 (View.ld x0 r2_x) (View.ld x1 r2_w)⟩]

/-- The store covers the buffer. -/
theorem cover2_2 (p0 : Vec F S512x1024 .f32) (y : S512x1024.Idx) :
    ∃ pc ∈ ([⟨r2_x, p0⟩] : List (View.Piece (Elt F) S512x1024 .f32)), y ∈ pc.1.set :=
  View.cover_of_tiled [⟨r2_x, p0⟩] S512x1024.size (by rfl) y

set_option maxHeartbeats 1000000 in
/-- The body on whole staging memrefs: the two inputs' contents are left as they were, the output's buffer ends at
    `out2_2` of them. -/
theorem sound_kernel2 (c : Dev nD) (E : Set ℕ) (i : grid2.Coords) (arg1 : Memref sig .tc .vmem S512x1024 .bf16) (harg1 : arg1.IsWhole)
    (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core `c`: the arrays as the region finds them; after the body each input's
    buffer at its block and the output's at `out2_2` of the input blocks; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRunA.lean ====
/-
  The whole run of the program: three kernel regions among four stretches of host operations.

  The buffer contents at each boundary are a fold from the launch memory: a host stretch applies its operations, a
  region replaces its output array by what its write-backs leave and changes nothing else. Each region is entered
  from "every unscoped buffer at the boundary's contents, the generator register at some state, nothing owed" and
  left in the same form at the next boundary's contents. At the end every unscoped buffer is read against the last
  boundary's contents, which gives both the arguments unchanged and the result array's value.
-/
import proofs.«176619_j57303453663372_2_alg».proof.Proof.Gen.KernelIdeal.Launch
import proofs.«176619_j57303453663372_2_alg».proof.Proof.Gen.KernelIdeal.Skeleton
import proofs.«176619_j57303453663372_2_alg».proof.Proof.Gen.KernelIdeal.Points
import proofs.«176619_j57303453663372_2_alg».proof.Proof.KIRegion0
import proofs.«176619_j57303453663372_2_alg».proof.Proof.KIRegion1
import proofs.«176619_j57303453663372_2_alg».proof.Proof.KIRegion2
import proofs.«176619_j57303453663372_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the transposed, concatenated and narrowed weights; x flattened and narrowed). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first projection kernel: its output array at what the write-backs leave. -/
def W2 (c : Dev nD) : Valuation τ sig (Elt F) :=
  Function.update (W1 m ρ c) (Proc.devRef .tc main_v8) (show Buf (Elt F) ((c : Thread nD τ).loc main_v8) from (dat0 (V1 m ρ) c).arrAt 2 cfg0.N)
abbrev V2 : (c : Dev nD) → (b : Ref sig .tc) → Buf (Elt F) ((c : Thread nD τ).loc b) := fun c b => W2 m ρ c b
/-- After the reshape of the projections to [2, 2048, 3072]. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention kernel: the context array at what the write-backs leave. -/
def W4 (c : Dev nD) : Valuation τ sig (Elt F) :=
  Function.update (W3 m ρ c) (Proc.devRef .tc main_v10) (show Buf (Elt F) ((c : Thread nD τ).loc main_v10) from (dat1 (V3 m ρ) c).arrAt 3 cfg1.N)
abbrev V4 : (c : Dev nD) → (b : Ref sig .tc) → Buf (Elt F) ((c : Thread nD τ).loc b) := fun c b => W4 m ρ c b
/-- After the context is flattened and the output weights narrowed. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the output projection kernel. -/
def W6 (c : Dev nD) : Valuation τ sig (Elt F) :=
  Function.update (W5 m ρ c) (Proc.devRef .tc main_v13) (show Buf (Elt F) ((c : Thread nD τ).loc main_v13) from (dat2 (V5 m ρ) c).arrAt 2 cfg2.N)
abbrev V6 : (c : Dev nD) → (b : Ref sig .tc) → Buf (Elt F) ((c : Thread nD τ).loc b) := fun c b => W6 m ρ c b
/-- After the last reshape: the end of the program. -/
abbrev W7 : Dev nD → Valuation τ sig (Elt F) := fun c => StableHlo.after hostOps3 (W6 m ρ c)

theorem W2_of_ne (c : Dev nD) (b : Ref sig .tc) (h : b ≠ main_v8) : W2 m ρ c (Proc.devRef .tc b) = W1 m ρ c (Proc.devRef .tc b) := by
  unfold W2; exact Function.update_of_ne (StableHlo.devRef_ne_of_ne h) _ _
theorem W4_of_ne (c : Dev nD) (b : Ref sig .tc) (h : b ≠ main_v10) : W4 m ρ c (Proc.devRef .tc b) = W3 m ρ c (Proc.devRef .tc b) := by
  unfold W4; exact Function.update_of_ne (StableHlo.devRef_ne_of_ne h) _ _
theorem W6_of_ne (c : Dev nD) (b : Ref sig .tc) (h : b ≠ main_v13) : W6 m ρ c (Proc.devRef .tc b) = W5 m ρ c (Proc.devRef .tc b) := by
  unfold W6; exact Function.update_of_ne (StableHlo.devRef_ne_of_ne h) _ _
theorem W2_out (c : Dev nD) : W2 m ρ c (Proc.devRef .tc main_v8) = (dat0 (V1 m ρ) c).arrAt 2 cfg0.N := by
  unfold W2; exact Function.update_self _ _ _
theorem W4_out (c : Dev nD) : W4 m ρ c (Proc.devRef .tc main_v10) = (dat1 (V3 m ρ) c).arrAt 3 cfg1.N := by
  unfold W4; exact Function.update_self _ _ _
theorem W6_out (c : Dev nD) : W6 m ρ c (Proc.devRef .tc main_v13) = (dat2 (V5 m ρ) c).arrAt 2 cfg2.N := by
  unfold W6; exact Function.update_self _ _ _

/-! ## The proof data family and the thread state -/

abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The first projection kernel: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N)
      (fun w => match w with
        | ⟨0, _⟩ => (((dat0 (V1 m ρ) c).arrAt_in 0 rfl _).trans (A_eq0 (V1 m ρ) c 0)).trans (W2_of_ne m ρ c main_v6 (by decide)).symm
        | ⟨1, _⟩ => (((dat0 (V1 m ρ) c).arrAt_in 1 rfl _).trans (A_eq0 (V1 m ρ) c 1)).trans (W2_of_ne m ρ c main_v7 (by decide)).symm
        | ⟨2, _⟩ => (W2_out m ρ c).symm)
      (fun b hb => W2_of_ne m ρ c b fun h => hb (h ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection kernel: entered at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N)
      (fun w => match w with
        | ⟨0, _⟩ => (((dat2 (V5 m ρ) c).arrAt_in 0 rfl _).trans (A_eq2 (V5 m ρ) c 0)).trans (W6_of_ne m ρ c main_v11 (by decide)).symm
        | ⟨1, _⟩ => (((dat2 (V5 m ρ) c).arrAt_in 1 rfl _).trans (A_eq2 (V5 m ρ) c 1)).trans (W6_of_ne m ρ c main_v12 (by decide)).symm
        | ⟨2, _⟩ => (W6_out m ρ c).symm)
      (fun b hb => W6_of_ne m ρ c b fun h => hb (h ▸ Finset.mem_image.mpr ⟨2, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRunB.lean ====
/-
  The attention region as a segment of the run. Its three input windows read one array, so at entry the core's
  full share of that array is cut in three (left half; the two halves of the right half), one piece per window, and
  at exit the three pieces — the contents unchanged, since input windows write nothing back — are joined into the
  full share again; the output array goes in and comes out at the full share.
-/
import proofs.«176619_j57303453663372_2_alg».proof.Proof.Gen.KernelIdeal.Launch
import proofs.«176619_j57303453663372_2_alg».proof.Proof.Gen.KernelIdeal.Skeleton
import proofs.«176619_j57303453663372_2_alg».proof.Proof.Gen.KernelIdeal.Points
import proofs.«176619_j57303453663372_2_alg».proof.Proof.KIRunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the four windows' arrays: the projections and the context. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v9) ↦{fullShare} V main_v9) ∗ (((c : Thread nD τ).loc main_v10) ↦{fullShare} V main_v10)) := by
  unfold Pipeline.arrBufs
  exact bigSep_eq_bigSepL_of_eq [main_v9, main_v10] (by decide) (by decide) _

/-- The pipeline's arrays, window by window, each at its share. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v9) ↦{fullShare.left} G 0) ∗ (((c : Thread nD τ).loc main_v9) ↦{fullShare.right.left} G 1)
          ∗ (((c : Thread nD τ).loc main_v9) ↦{fullShare.right.right} G 2) ∗ (((c : Thread nD τ).loc main_v10) ↦{fullShare} G 3)) := by
  unfold Dat.arrays
  rw [bigSep_W1]
  simp only [show (cfg1.win 0).arr.view.set = Finset.univ from (arr_whole1 0).set_eq_univ,
    show (cfg1.win 1).arr.view.set = Finset.univ from (arr_whole1 1).set_eq_univ,
    show (cfg1.win 2).arr.view.set = Finset.univ from (arr_whole1 2).set_eq_univ,
    show (cfg1.win 3).arr.view.set = Finset.univ from (arr_whole1 3).set_eq_univ]
  rfl

/-- ENTRY: the two buffers at the full share make the four windows' arrays at their entry contents. -/
theorem arrays1_entry (c : Dev nD) (V : (c : Dev nD) → (b : Ref sig .tc) → Buf (Elt F) ((c : Thread nD τ).loc b)) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  show iprop((((c : Thread nD τ).loc main_v9) ↦{fullShare} V c main_v9) ∗ (((c : Thread nD τ).loc main_v10) ↦{fullShare} V c main_v10))
    ⊢ (iprop((((c : Thread nD τ).loc main_v9) ↦{fullShare.left} V c main_v9) ∗ (((c : Thread nD τ).loc main_v9) ↦{fullShare.right.left} V c main_v9)
          ∗ (((c : Thread nD τ).loc main_v9) ↦{fullShare.right.right} V c main_v9) ∗ (((c : Thread nD τ).loc main_v10) ↦{fullShare} V c main_v10)) : sProp 𝕄)
  iintro ⟨H9, H10⟩
  ihave H := (pointsTo_share (PosShare.mem_left_op_right fullShare)).1 $$ H9
  icases H with ⟨Hl, Hr⟩
  ihave H' := (pointsTo_share (PosShare.mem_left_op_right fullShare.right)).1 $$ Hr
  icases H' with ⟨Hrl, Hrr⟩
  isplitl [Hl]; · iexact Hl
  isplitl [Hrl]; · iexact Hrl
  isplitl [Hrr]; · iexact Hrr
  iexact H10

/-- EXIT: the four windows' arrays at their final contents make the two buffers at the full share, at any contents
    `V'` that keep the projections and hold the context's write-backs. -/
theorem arrays1_exit (c : Dev nD) (V : (c : Dev nD) → (b : Ref sig .tc) → Buf (Elt F) ((c : Thread nD τ).loc b))
    (V' : (b : Ref sig .tc) → Buf (Elt F) ((c : Thread nD τ).loc b)) (h9 : V' main_v9 = V c main_v9)
    (h10 : V' main_v10 = (dat1 V c).arrAt 3 cfg1.N) :
    ((dat1 V c).arrays ((dat1 V c).arrAt · cfg1.N) : sProp 𝕄)
      ⊢ Pipeline.arrBufs (Ix := Unit) (Name := ℕ) (U := UR sig nD τ) (Lvl := ℕ) spec1 c V' := by
  rw [arrBufs1_eq, arrays1_eq, h9, h10]
  rw [(dat1 V c).arrAt_in 0 rfl, (dat1 V c).arrAt_in 1 rfl, (dat1 V c).arrAt_in 2 rfl]
  show (iprop((((c : Thread nD τ).loc main_v9) ↦{fullShare.left} V c main_v9) ∗ (((c : Thread nD τ).loc main_v9) ↦{fullShare.right.left} V c main_v9)
          ∗ (((c : Thread nD τ).loc main_v9) ↦{fullShare.right.right} V c main_v9) ∗ (((c : Thread nD τ).loc main_v10) ↦{fullShare} (dat1 V c).arrAt 3 cfg1.N)) : sProp 𝕄)
    ⊢ iprop((((c : Thread nD τ).loc main_v9) ↦{fullShare} V c main_v9) ∗ (((c : Thread nD τ).loc main_v10) ↦{fullShare} (dat1 V c).arrAt 3 cfg1.N))
  iintro ⟨Hl, Hrl, Hrr, H10⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H10

set_option backward.isDefEq.respectTransparency.types false in
/-- The attention kernel: entered at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) := by
      rw [Pipeline.unscopedBufs_split₀ (cfgs) 1 winFacts₀1.arr_unscoped c (V3 m ρ c)]
      exact sep_mono (arrays1_entry c (V3 m ρ)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := by
      rw [Pipeline.unscopedBufs_split₀ (cfgs) 1 winFacts₀1.arr_unscoped c (V4 m ρ c)]
      refine sep_mono (arrays1_exit c (V3 m ρ) (V4 m ρ c) (W4_of_ne m ρ c main_v9 (by decide)) (W4_out m ρ c)) (Entails.of_eq ?_)
      unfold Pipeline.unscopedRest
      exact bigSep_congr fun b hb => by
        rw [show V4 m ρ c b = V3 m ρ c b from W4_of_ne m ρ c b fun h =>
          (Finset.mem_sdiff.mp hb).2 (h ▸ Finset.mem_image.mpr ⟨3, Finset.mem_univ _, rfl⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRun.lean ====
/-
  The launch: @main is the run of seven segments (four host stretches, three kernel regions), whose thread states
  chain from the launch memory to the last boundary; every weakly fair execution terminates, and at the end every
  unscoped buffer holds the last boundary's contents. Read at the five arguments this is the frame; read at the result
  array it is the program's value.
-/
import proofs.«176619_j57303453663372_2_alg».proof.Proof.Gen.KernelIdeal.Launch
import proofs.«176619_j57303453663372_2_alg».proof.Proof.Gen.KernelIdeal.Skeleton
import proofs.«176619_j57303453663372_2_alg».proof.Proof.Gen.KernelIdeal.Points
import proofs.«176619_j57303453663372_2_alg».proof.Proof.KIRunA
import proofs.«176619_j57303453663372_2_alg».proof.Proof.KIRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's seven segments, in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched -/

/-- No host stretch writes an argument and no region's output is one: the fold walks back to the launch memory. -/
theorem W7_of_arg (c : Dev nD) (r : Ref sig .tc) (h0 : r ∉ hostOps0_W) (h1 : r ∉ hostOps1_W) (h2 : r ∉ hostOps2_W) (h3 : r ∉ hostOps3_W)
    (h8 : r ≠ main_v8) (h10 : r ≠ main_v10) (h13 : r ≠ main_v13) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r h13
    _ = W4 m ρ c (Proc.devRef .tc r) := StableHlo.after_of_writes_sub hostOps2 _ hostOps2_writes h2
    _ = W3 m ρ c (Proc.devRef .tc r) := W4_of_ne m ρ c r h10
    _ = W2 m ρ c (Proc.devRef .tc r) := StableHlo.after_of_writes_sub hostOps1 _ hostOps1_writes h1
    _ = W1 m ρ c (Proc.devRef .tc r) := W2_of_ne m ρ c r h8
    _ = W0 m ρ c (Proc.devRef .tc r) := StableHlo.after_of_writes_sub hostOps0 _ hostOps0_writes h0
    _ = m ((c : Thread nD τ).loc r) := rfl

/-- THE FRAME at any float instance, with the result array's value beside it. -/
theorem run_value : θ_run defs (onTc (τ := τ) (main (F := F))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v14 (by decide)),
     (h c _ (mem_uc main_arg0 (by decide))).trans (W7_of_arg m ρ c main_arg0 (by decide) (by decide) (by decide) (by decide) (by decide) (by decide) (by decide)),
     (h c _ (mem_uc main_arg1 (by decide))).trans (W7_of_arg m ρ c main_arg1 (by decide) (by decide) (by decide) (by decide) (by decide) (by decide) (by decide)),
     (h c _ (mem_uc main_arg2 (by decide))).trans (W7_of_arg m ρ c main_arg2 (by decide) (by decide) (by decide) (by decide) (by decide) (by decide) (by decide)),
     (h c _ (mem_uc main_arg3 (by decide))).trans (W7_of_arg m ρ c main_arg3 (by decide) (by decide) (by decide) (by decide) (by decide) (by decide) (by decide)),
     (h c _ (mem_uc main_arg4 (by decide))).trans (W7_of_arg m ρ c main_arg4 (by decide) (by decide) (by decide) (by decide) (by decide) (by decide) (by decide))⟩)
    (run_all m ρ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.KernelIdeal.Hand

end
-- ==== Proof.KHost.lean ====
/-
  The host operations between the kernels, read at an index.

  Before the first kernel the host transposes the four weight matrices (so that rows become columns), puts the first three
  side by side into one [1024, 3072] matrix, flattens the activations [2, 2048, 1024] to [4096, 1024] (row b·2048 + s), and
  changes float formats, which on the extended reals changes nothing. Between and after the kernels it only reshapes
  between [4096, n] and [2, 2048, n], again row b·2048 + s, and changes the format of the transposed output weights.
-/
import proofs.«176619_j57303453663372_2_alg».proof.Proof.KIRunA
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen Cert.KernelIdeal.Hand Idealize.ShloMosaic Idealize.ShloMosaic.ValueIdx
open Idealize.ShloMosaic.TcCoe Idealize.SL.Sem

variable (m : (ℓ : Loc nD τ sig) → Buf (Elt Ideal) ℓ) (ρ : Dev nD → PrngReg)

/-! ## The first stretch -/

/-- The flattened activations: the argument reshaped, its format changed. -/
theorem V1_v6 (c : Dev nD) : @Eq (S4096x1024.Idx → EReal) (Hand.V1 m ρ c main_v6)
    (shapeCast S4096x1024 (m ((c : Thread nD τ).loc main_arg0) : FVec Ideal S2x2048x1024 .f32)
      shapeCasts_S2x2048x1024_S4096x1024) := by
  dsimp only [Hand.V1, Hand.W1, Hand.W0]
  after_results
  rfl

/-- Row b·2048 + s of the flattened activations is row (b, s) of the argument. -/
theorem x_flat (c : Dev nD) (b : Fin 2) (s : Fin 2048) (k : Fin 1024) :
    Hand.V1 m ρ c main_v6 (ix2 ⟨b.val * 2048 + s.val, by omega⟩ k) = m ((c : Thread nD τ).loc main_arg0) (ix3 b s k) := by
  refine (congrFun (V1_v6 m ρ c) _).trans ?_
  refine shapeCast_apply (s := S2x2048x1024) (t := S4096x1024) (m ((c : Thread nD τ).loc main_arg0)) shapeCasts_S2x2048x1024_S4096x1024 _ (ix3 b s k) ?_
  rewrite [Shape.rowMajor_val_three, Shape.rowMajor_val_two]
  rfl

/-- A weight matrix transposed: entry (k, e) is entry (e, k). -/
theorem transpose_w_apply (w : FVec Ideal S1024x1024 .f32) (k e : Fin 1024) :
    transpose S1024x1024 [1, 0] w transposes_S1024x1024_S1024x1024_1_0 (ix2 k e) = w (ix2 e k) :=
  transpose_apply [1, 0] w transposes_S1024x1024_S1024x1024_1_0 (ix2 k e) (ix2 e k)
    (fun b => by match b with | ⟨0, _⟩ => rfl | ⟨1, _⟩ => rfl)

/-- The joined weights: the three transposed matrices side by side, the format changed. -/
theorem V1_v7 (c : Dev nD) : @Eq (S1024x3072.Idx → EReal) (Hand.V1 m ρ c main_v7)
    (concatenate S1024x3072 1
      [⟨S1024x1024, transpose S1024x1024 [1, 0] (m ((c : Thread nD τ).loc main_arg1) : FVec Ideal S1024x1024 .f32) transposes_S1024x1024_S1024x1024_1_0⟩,
       ⟨S1024x1024, transpose S1024x1024 [1, 0] (m ((c : Thread nD τ).loc main_arg2) : FVec Ideal S1024x1024 .f32) transposes_S1024x1024_S1024x1024_1_0⟩,
       ⟨S1024x1024, transpose S1024x1024 [1, 0] (m ((c : Thread nD τ).loc main_arg3) : FVec Ideal S1024x1024 .f32) transposes_S1024x1024_S1024x1024_1_0⟩]
      concatenates_S1024x1024_S1024x1024_S1024x1024_S1024x3072_d1) := by
  dsimp only [Hand.V1, Hand.W1, Hand.W0]
  after_results
  rfl

/-- Column e of the joined weights is column e of the first matrix. -/
theorem joined0 (w0 w1 w2 : S1024x1024.Idx → EReal) (k e : Fin 1024) :
    concatenate S1024x3072 1 [⟨S1024x1024, w0⟩, ⟨S1024x1024, w1⟩, ⟨S1024x1024, w2⟩]
      concatenates_S1024x1024_S1024x1024_S1024x1024_S1024x3072_d1 (ix2 k ⟨e.val, by omega⟩) = w0 (ix2 k e) :=
  concatenate_apply_piece (t := S1024x3072) (1 : Fin 2) [⟨S1024x1024, w0⟩, ⟨S1024x1024, w1⟩, ⟨S1024x1024, w2⟩]
    concatenates_S1024x1024_S1024x1024_S1024x1024_S1024x3072_d1 (ix2 k ⟨e.val, by omega⟩) 0 (show 0 < 3 by decide) S1024x1024 w0 rfl rfl 0 rfl (ix2 k e)
    (fun b hb => by match b with | ⟨0, _⟩ => rfl | ⟨1, _⟩ => exact absurd rfl hb) (Nat.zero_add _)

/-- Column 1024 + e of the joined weights is column e of the second matrix. -/
theorem joined1 (w0 w1 w2 : S1024x1024.Idx → EReal) (k e : Fin 1024) :
    concatenate S1024x3072 1 [⟨S1024x1024, w0⟩, ⟨S1024x1024, w1⟩, ⟨S1024x1024, w2⟩]
      concatenates_S1024x1024_S1024x1024_S1024x1024_S1024x3072_d1 (ix2 k ⟨1024 + e.val, by omega⟩) = w1 (ix2 k e) :=
  concatenate_apply_piece (t := S1024x3072) (1 : Fin 2) [⟨S1024x1024, w0⟩, ⟨S1024x1024, w1⟩, ⟨S1024x1024, w2⟩]
    concatenates_S1024x1024_S1024x1024_S1024x1024_S1024x3072_d1 (ix2 k ⟨1024 + e.val, by omega⟩) 1 (show 1 < 3 by decide) S1024x1024 w1 rfl rfl 1024 rfl (ix2 k e)
    (fun b hb => by match b with | ⟨0, _⟩ => rfl | ⟨1, _⟩ => exact absurd rfl hb) rfl

/-- Column 2048 + e of the joined weights is column e of the third matrix. -/
theorem joined2 (w0 w1 w2 : S1024x1024.Idx → EReal) (k e : Fin 1024) :
    concatenate S1024x3072 1 [⟨S1024x1024, w0⟩, ⟨S1024x1024, w1⟩, ⟨S1024x1024, w2⟩]
      concatenates_S1024x1024_S1024x1024_S1024x1024_S1024x3072_d1 (ix2 k ⟨2048 + e.val, by omega⟩) = w2 (ix2 k e) :=
  concatenate_apply_piece (t := S1024x3072) (1 : Fin 2) [⟨S1024x1024, w0⟩, ⟨S1024x1024, w1⟩, ⟨S1024x1024, w2⟩]
    concatenates_S1024x1024_S1024x1024_S1024x1024_S1024x3072_d1 (ix2 k ⟨2048 + e.val, by omega⟩) 2 (show 2 < 3 by decide) S1024x1024 w2 rfl rfl 2048 rfl (ix2 k e)
    (fun b hb => by match b with | ⟨0, _⟩ => rfl | ⟨1, _⟩ => exact absurd rfl hb) rfl

theorem w_q (c : Dev nD) (k e : Fin 1024) :
    Hand.V1 m ρ c main_v7 (ix2 k ⟨e.val, by omega⟩) = m ((c : Thread nD τ).loc main_arg1) (ix2 e k) := by
  refine (congrFun (V1_v7 m ρ c) _).trans ?_
  refine (joined0 _ _ _ k e).trans ?_
  exact transpose_w_apply _ k e

theorem w_k (c : Dev nD) (k e : Fin 1024) :
    Hand.V1 m ρ c main_v7 (ix2 k ⟨1024 + e.val, by omega⟩) = m ((c : Thread nD τ).loc main_arg2) (ix2 e k) := by
  refine (congrFun (V1_v7 m ρ c) _).trans ?_
  refine (joined1 _ _ _ k e).trans ?_
  exact transpose_w_apply _ k e

theorem w_v (c : Dev nD) (k e : Fin 1024) :
    Hand.V1 m ρ c main_v7 (ix2 k ⟨2048 + e.val, by omega⟩) = m ((c : Thread nD τ).loc main_arg3) (ix2 e k) := by
  refine (congrFun (V1_v7 m ρ c) _).trans ?_
  refine (joined2 _ _ _ k e).trans ?_
  exact transpose_w_apply _ k e

/-! ## The second stretch: the projections reshaped to [2, 2048, 3072] -/

theorem V3_v9 (c : Dev nD) : @Eq (FVec Ideal S2x2048x3072 .bf16) (Hand.V3 m ρ c main_v9)
    (shapeCast S2x2048x3072 ((dat0 (F := Ideal) (Hand.V1 m ρ) c).arrAt 2 cfg0.N : FVec Ideal S4096x3072 .bf16) shapeCasts_S4096x3072_S2x2048x3072) := by
  dsimp only [Hand.V3, Hand.W3]
  after_results
  rw [Hand.W2_out]
  rfl

theorem qkv3 (c : Dev nD) (b : Fin 2) (s : Fin 2048) (j : Fin 3072) :
    Hand.V3 m ρ c main_v9 (ix3 b s j) = (dat0 (F := Ideal) (Hand.V1 m ρ) c).arrAt 2 cfg0.N (ix2 ⟨b.val * 2048 + s.val, by omega⟩ j) := by
  refine (congrFun (V3_v9 m ρ c) _).trans ?_
  refine shapeCast_apply (s := S4096x3072) (t := S2x2048x3072) ((dat0 (F := Ideal) (Hand.V1 m ρ) c).arrAt 2 cfg0.N) shapeCasts_S4096x3072_S2x2048x3072 (ix3 b s j) _ ?_
  rewrite [Shape.rowMajor_val_three, Shape.rowMajor_val_two]
  rfl

/-! ## The third stretch: the context flattened, the output weights' format changed -/

theorem V5_v11 (c : Dev nD) : @Eq (FVec Ideal S4096x1024 .bf16) (Hand.V5 m ρ c main_v11)
    (shapeCast S4096x1024 ((dat1 (F := Ideal) (Hand.V3 m ρ) c).arrAt 3 cfg1.N : FVec Ideal S2x2048x1024 .bf16) shapeCasts_S2x2048x1024_S4096x1024) := by
  dsimp only [Hand.V5, Hand.W5]
  after_results
  rw [Hand.W4_out]
  rfl

theorem ctx_flat (c : Dev nD) (b : Fin 2) (s : Fin 2048) (k : Fin 1024) :
    Hand.V5 m ρ c main_v11 (ix2 ⟨b.val * 2048 + s.val, by omega⟩ k) = (dat1 (F := Ideal) (Hand.V3 m ρ) c).arrAt 3 cfg1.N (ix3 b s k) := by
  refine (congrFun (V5_v11 m ρ c) _).trans ?_
  refine shapeCast_apply (s := S2x2048x1024) (t := S4096x1024) ((dat1 (F := Ideal) (Hand.V3 m ρ) c).arrAt 3 cfg1.N) shapeCasts_S2x2048x1024_S4096x1024 _ (ix3 b s k) ?_
  rewrite [Shape.rowMajor_val_three, Shape.rowMajor_val_two]
  rfl

/-- The transposed output weights pass the first two kernels and the reshape between them unchanged. -/
theorem W4_v3 (c : Dev nD) : @Eq (FVec Ideal S1024x1024 .f32) (Hand.W4 m ρ c (Proc.devRef .tc main_v3))
    (transpose S1024x1024 [1, 0] (m ((c : Thread nD τ).loc main_arg4) : FVec Ideal S1024x1024 .f32) transposes_S1024x1024_S1024x1024_1_0) := by
  rw [Hand.W4_of_ne m ρ c main_v3 (by decide)]
  dsimp only [Hand.W3]
  rw [StableHlo.after_of_writes_sub hostOps1 _ hostOps1_writes (by decide : main_v3 ∉ hostOps1_W)]
  rw [Hand.W2_of_ne m ρ c main_v3 (by decide)]
  dsimp only [Hand.W1, Hand.W0]
  after_results

theorem V5_v12 (c : Dev nD) : @Eq (S1024x1024.Idx → EReal) (Hand.V5 m ρ c main_v12)
    (transpose S1024x1024 [1, 0] (m ((c : Thread nD τ).loc main_arg4) : FVec Ideal S1024x1024 .f32) transposes_S1024x1024_S1024x1024_1_0) := by
  dsimp only [Hand.V5, Hand.W5]
  after_results
  rw [W4_v3]
  rfl

theorem w_o (c : Dev nD) (k e : Fin 1024) :
    Hand.V5 m ρ c main_v12 (ix2 k e) = m ((c : Thread nD τ).loc main_arg4) (ix2 e k) := by
  refine (congrFun (V5_v12 m ρ c) _).trans ?_
  exact transpose_w_apply _ k e

/-! ## The last stretch: the result reshaped to [2, 2048, 1024] -/

theorem W7_v14 (c : Dev nD) : @Eq (FVec Ideal S2x2048x1024 .f32) (Hand.W7 m ρ c (Proc.devRef .tc main_v14))
    (shapeCast S2x2048x1024 ((dat2 (F := Ideal) (Hand.V5 m ρ) c).arrAt 2 cfg2.N : FVec Ideal S4096x1024 .f32) shapeCasts_S4096x1024_S2x2048x1024) := by
  dsimp only [Hand.W7]
  after_results
  rw [Hand.W6_out]
  rfl

theorem result3 (c : Dev nD) (b : Fin 2) (s : Fin 2048) (e : Fin 1024) :
    Hand.W7 m ρ c (Proc.devRef .tc main_v14) (ix3 b s e) = (dat2 (F := Ideal) (Hand.V5 m ρ) c).arrAt 2 cfg2.N (ix2 ⟨b.val * 2048 + s.val, by omega⟩ e) := by
  refine (congrFun (W7_v14 m ρ c) _).trans ?_
  refine shapeCast_apply (s := S4096x1024) (t := S2x2048x1024) ((dat2 (F := Ideal) (Hand.V5 m ρ) c).arrAt 2 cfg2.N) shapeCasts_S4096x1024_S2x2048x1024 (ix3 b s e) _ ?_
  rewrite [Shape.rowMajor_val_three, Shape.rowMajor_val_two]
  rfl

end Cert.KernelIdeal.KValue

end
-- ==== Proof.Spec.lean ====
/-
  Multi-head attention as one function on the extended reals.

  For an input x : [2, 2048, 1024] and four weight matrices W : [1024, 1024] (rows = output features):
  the three projections are  P(W)[b, s, e] = ∑_d x[b, s, d] · W[e, d];
  head h owns the 64 columns h·64 … h·64 + 63 of a projection;
  the logits of head h are  score[b, h, q, k] = ∑_d Q[b, q, h·64 + d] · K[b, k, h·64 + d], scaled by 1/8
  (the scale is the one place where the two programs differ: one divides the sum by √64, the other multiplies every
  factor of Q by 1/8 before summing, so the logits are a PARAMETER `sc` of everything downstream);
  each row of logits is normalised by  softmax(r)[k] = exp(r k − max r) / ∑_k' exp(r k' − max r);
  the context is  ctx[b, q, c] = ∑_k softmax(score[b, c / 64, q, ·])[k] · V[b, k, c];
  the result is   out[b, s, e] = ∑_c ctx[b, s, c] · Wo[e, c].
-/
import Idealize.ShloMosaic.PureOps.Ideal
import Idealize.ShloMosaic.Lib.ValueIdx

noncomputable section

namespace Cert.Attn

open Idealize.ShloMosaic Idealize.ShloMosaic.ValueIdx

/-- An activation tensor [2, 2048, 1024] by its three coordinates. -/
abbrev Act : Type := Fin 2 → Fin 2048 → Fin 1024 → EReal

/-- The logits of every head: batch, head, query row, key row. -/
abbrev Logits : Type := Fin 2 → Fin 16 → Fin 2048 → Fin 2048 → EReal

/-- `x · Wᵀ`: entry (b, s, e) is the inner product of row (b, s) of `x` with row `e` of `W`. -/
def proj (x : (⟨3, ![2, 2048, 1024]⟩ : Shape).Idx → EReal) (W : (⟨2, ![1024, 1024]⟩ : Shape).Idx → EReal) : Act :=
  fun b s e => ∑ d : Fin 1024, x (ix3 b s d) * W (ix2 e d)

/-- Column `h·64 + d`: lane `d` of head `h`. -/
def col (h : Fin 16) (d : Fin 64) : Fin 1024 := ⟨h.val * 64 + d.val, by omega⟩

/-- The head that owns column `c`. -/
def headOf (c : Fin 1024) : Fin 16 := ⟨c.val / 64, by omega⟩

/-- Logits with the scale applied to the finished inner product: `(q · k) / √64`. -/
def scoreR (Q K : Act) : Logits :=
  fun b h q k => Ideal.div (∑ d : Fin 64, Q b q (col h d) * K b k (col h d)) (Ideal.sqrt (Ideal.ofBits .f32 0x42800000#32))

/-- Logits with the scale applied to every factor of the query first: `(q · 1/8) · k`. -/
def scoreK (Q K : Act) : Logits :=
  fun b h q k => ∑ d : Fin 64, (Q b q (col h d) * Ideal.ofBits .bf16 0x3E00#16) * K b k (col h d)

/-- The largest entry of a row (the fold of `max` from −∞). -/
def rowMax (r : Fin 2048 → EReal) : EReal := (Finset.univ : Finset (Fin 2048)).fold max ⊥ r

/-- A row normalised: `exp (r k − max r)` over the sum of those. -/
def softmax (r : Fin 2048 → EReal) (k : Fin 2048) : EReal :=
  Ideal.div (Ideal.exp (r k - rowMax r)) (∑ k' : Fin 2048, Ideal.exp (r k' - rowMax r))

/-- The context: at (b, q, c) the softmax weights of the head owning column `c`, against column `c` of `V`. -/
def ctx (sc : Logits) (V : Act) : Act :=
  fun b q c => ∑ k : Fin 2048, softmax (sc b (headOf c) q) k * V b k c

/-- The output projection of an activation: entry (b, s, e) is the inner product of row (b, s) with row `e` of `Wo`. -/
def outProj (C : Act) (Wo : (⟨2, ![1024, 1024]⟩ : Shape).Idx → EReal) : Act :=
  fun b s e => ∑ c : Fin 1024, C b s c * Wo (ix2 e c)

/-- Attention, with the logits' formula `score` (of the query and key projections) a parameter. -/
def attn (score : Act → Act → Logits) (x : (⟨3, ![2, 2048, 1024]⟩ : Shape).Idx → EReal)
    (Wq Wk Wv Wo : (⟨2, ![1024, 1024]⟩ : Shape).Idx → EReal) : Act :=
  outProj (ctx (score (proj x Wq) (proj x Wk)) (proj x Wv)) Wo

end Cert.Attn

end
-- ==== Proof.PayMatmul.lean ====
/-
  The two plain matrix products of the program, read at an index on the extended reals.

  Both bodies load a [512, 1024] block of rows and a whole weight matrix, pass each through a shape cast to its own
  shape (the identity), and multiply into a zero accumulator; the first body then changes the float format of the
  product, which on the extended reals changes nothing. So each stored entry (r, c) is the plain inner product
  ∑_k x[r, k] · W[k, c].
-/
import proofs.«176619_j57303453663372_2_alg».proof.Proof.Gen.KernelIdeal.Skeleton
import proofs.«176619_j57303453663372_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

variable [Cert.KernelIdeal.Facts]

theorem matmul_1024x3072_apply_lhs_non (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem matmul_1024x3072_apply_lhs_con (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem matmul_1024x3072_apply_rhs_non (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl
theorem matmul_1024x3072_apply_rhs_con (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- The product [512, 1024] × [1024, 3072] into the zero accumulator, at (r, c): the contraction index is its one
    coordinate k, the left factor is read at (r, k) and the right one at (k, c). -/
theorem matmul_1024x3072_apply (l : FVec Ideal S512x1024 .bf16) (w : FVec Ideal S1024x3072 .bf16) (r : Fin 512) (c : Fin 3072) :
    matmul dot_S512x1024_S1024x3072_S512x3072_1_0_0_1_n_n none l w (constant (F := Ideal) S512x3072 .f32 0x00000000#32) (ix2 r c)
      = ∑ k : Fin 1024, l (ix2 r k) * w (ix2 k c) := by
  refine (Ideal.matmul_constant_zero_apply dot_S512x1024_S1024x3072_S512x3072_1_0_0_1_n_n none l w (ix2 r c)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r c) ((contrEquiv1 dot_S512x1024_S1024x3072_S512x3072_1_0_0_1_n_n 1024 rfl rfl).symm k) = ix2 r k :=
    funext fun a => Fin.ext (by
      match a with
      | ⟨0, _⟩ => exact matmul_1024x3072_apply_lhs_non _ _
      | ⟨1, _⟩ => exact (matmul_1024x3072_apply_lhs_con _ _).trans hk)
  have er : dot_S512x1024_S1024x3072_S512x3072_1_0_0_1_n_n.rhsIdx (ix2 r c) ((contrEquiv1 dot_S512x1024_S1024x3072_S512x3072_1_0_0_1_n_n 1024 rfl rfl).symm k) = ix2 k c :=
    funext fun a => Fin.ext (by
      match a with
      | ⟨1, _⟩ => exact matmul_1024x3072_apply_rhs_non _ _
      | ⟨0, _⟩ => exact (matmul_1024x3072_apply_rhs_con _ _).trans hk)
  rw [el, er]

theorem matmul_1024x1024_apply_lhs_non (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem matmul_1024x1024_apply_lhs_con (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem matmul_1024x1024_apply_rhs_non (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem matmul_1024x1024_apply_rhs_con (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The product [512, 1024] × [1024, 1024] into the zero accumulator, at (r, c), likewise. -/
theorem matmul_1024x1024_apply (l : FVec Ideal S512x1024 .bf16) (w : FVec Ideal S1024x1024 .bf16) (r : Fin 512) (c : Fin 1024) :
    matmul dot_S512x1024_S1024x1024_S512x1024_1_0_0_1_n_n none l w (constant (F := Ideal) S512x1024 .f32 0x00000000#32) (ix2 r c)
      = ∑ k : Fin 1024, l (ix2 r k) * w (ix2 k c) := by
  refine (Ideal.matmul_constant_zero_apply dot_S512x1024_S1024x1024_S512x1024_1_0_0_1_n_n none l w (ix2 r c)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k :=
    funext fun a => Fin.ext (by
      match a with
      | ⟨0, _⟩ => exact matmul_1024x1024_apply_lhs_non _ _
      | ⟨1, _⟩ => exact (matmul_1024x1024_apply_lhs_con _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c :=
    funext fun a => Fin.ext (by
      match a with
      | ⟨1, _⟩ => exact matmul_1024x1024_apply_rhs_non _ _
      | ⟨0, _⟩ => exact (matmul_1024x1024_apply_rhs_con _ _).trans hk)
  rw [el, er]

/-- What the first body stores at (r, c): the inner product of row r of the block with column c of the weights. -/
theorem k0_pay1_apply (v0 : Vec Ideal S512x1024 .bf16) (v2 : Vec Ideal S1024x3072 .bf16) (r : Fin 512) (c : Fin 3072) :
    k0_pay1 (F := Ideal) v0 v2 (ix2 r c) = ∑ k : Fin 1024, v0 (ix2 r k) * v2 (ix2 k c) := by
  have e0 : shapeCast S512x1024 v0 Facts₀.shapeCasts_S512x1024_S512x1024 = v0 := shapeCast_self v0 _
  have e2 : shapeCast S1024x3072 v2 Facts₀.shapeCasts_S1024x3072_S1024x3072 = v2 := shapeCast_self v2 _
  unfold k0_pay1
  show matmul dot_S512x1024_S1024x3072_S512x3072_1_0_0_1_n_n none (shapeCast S512x1024 v0 Facts₀.shapeCasts_S512x1024_S512x1024)
      (shapeCast S1024x3072 v2 Facts₀.shapeCasts_S1024x3072_S1024x3072) (constant (F := Ideal) S512x3072 .f32 0x00000000#32) (ix2 r c) = _
  rw [e0, e2]
  exact matmul_1024x3072_apply v0 v2 r c

/-- What the last body stores at (r, c): the same inner product against the output weights. -/
theorem k2_pay1_apply (v0 : Vec Ideal S512x1024 .bf16) (v2 : Vec Ideal S1024x1024 .bf16) (r : Fin 512) (c : Fin 1024) :
    k2_pay1 (F := Ideal) v0 v2 (ix2 r c) = ∑ k : Fin 1024, v0 (ix2 r k) * v2 (ix2 k c) := by
  have e0 : shapeCast S512x1024 v0 Facts₀.shapeCasts_S512x1024_S512x1024 = v0 := shapeCast_self v0 _
  have e2 : shapeCast S1024x1024 v2 Facts₀.shapeCasts_S1024x1024_S1024x1024 = v2 := shapeCast_self v2 _
  unfold k2_pay1
  show matmul dot_S512x1024_S1024x1024_S512x1024_1_0_0_1_n_n none (shapeCast S512x1024 v0 Facts₀.shapeCasts_S512x1024_S512x1024)
      (shapeCast S1024x1024 v2 Facts₀.shapeCasts_S1024x1024_S1024x1024) (constant (F := Ideal) S512x1024 .f32 0x00000000#32) (ix2 r c) = _
  rw [e0, e2]
  exact matmul_1024x1024_apply v0 v2 r c

end Cert.KernelIdeal.PayValue

end
-- ==== Proof.KVal0.lean ====
/-
  The first projection kernel's output array after its eight grid points.

  Point t multiplies rows 512·t … 512·t + 511 of the activations by the whole weight matrix and writes the product back
  as rows 512·t … 512·t + 511 of the output. So block t of the output is block t of ONE function of the two arrays the
  region is entered with — entry (r, j) the inner product of row r of the first with column j of the second — and the
  eight blocks tile the output: row r lies in the block of point r / 512.
-/
import proofs.«176619_j57303453663372_2_alg».proof.Proof.KIRegion0
import proofs.«176619_j57303453663372_2_alg».proof.Proof.PayMatmul
import Idealize.ShloMosaic.Lib.Pipeline.Value

set_option maxRecDepth 16384

noncomputable section

namespace Cert.KernelIdeal.KValue

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The activations the region is entered with, as an array of extended reals. -/
abbrev act0 (c : Dev nD) : S4096x1024.Idx → EReal := V c main_v6
/-- The weights the region is entered with. -/
abbrev wts0 (c : Dev nD) : S1024x3072.Idx → EReal := V c main_v7
/-- The output array after the region. -/
abbrev res0 (c : Dev nD) : S4096x3072.Idx → EReal := (dat0 (F := Ideal) V c).arrAt 2 cfg0.N

/-- The product of the two arrays, entry by entry. -/
def productOf0 (c : Dev nD) : S4096x3072.Idx → EReal := fun i =>
  ∑ k : Fin 1024, act0 V c (ix2 (⟨(i 0).val, (i 0).isLt⟩ : Fin 4096) k) * wts0 V c (ix2 k (⟨(i 1).val, (i 1).isLt⟩ : Fin 3072))

/-- The index maps over the grid: the row windows sit at block t, the weight window at block 0. -/
theorem block_index_of_point0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows block at point t is rows 512·t … of the activations. -/
theorem iblk0_0_apply (c : Dev nD) (t : Fin cfg0.N) (y : S512x1024.Idx) (i : S4096x1024.Idx)
    (h0 : (i 0).val = t.val * 512 + (y 0).val) (h1 : (i 1).val = (y 1).val) :
    iblk0 V c 0 t y = V c main_v6 i := by
  obtain ⟨e0, e1, -⟩ := block_index_of_point0 t
  unfold iblk0
  rw [View.read_apply]
  show V c main_v6 (((cfg0.win 0).blk t).view.emb y) = V c main_v6 i
  refine congrArg (V c main_v6) (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 1024 + 1 * (y 1).val = (i 1).val; rw [e1, h1]; omega

/-- The weight block at every point is the whole weight array. -/
theorem iblk0_1_apply (c : Dev nD) (t : Fin cfg0.N) (y : S1024x3072.Idx) (i : S1024x3072.Idx)
    (h0 : (i 0).val = (y 0).val) (h1 : (i 1).val = (y 1).val) :
    iblk0 V c 1 t y = V c main_v7 i := by
  obtain ⟨-, -, e0, e1, -⟩ := block_index_of_point0 t
  unfold iblk0
  rw [View.read_apply]
  show V c main_v7 (((cfg0.win 1).blk t).view.emb y) = V c main_v7 i
  refine congrArg (V c main_v7) (funext fun a => Fin.ext ?_)
  match a with
  | ⟨0, _⟩ => show win0_1.index t (0 : Fin 2) * 1024 + 1 * (y 0).val = (i 0).val; rw [e0, h0]; omega
  | ⟨1, _⟩ => show win0_1.index t (1 : Fin 2) * 3072 + 1 * (y 1).val = (i 1).val; rw [e1, h1]; omega

/-- What point t stores at (r, j) of its block is the product's entry (512·t + r, j). -/
theorem point_product0 (c : Dev nD) (t : Fin cfg0.N) (j : S512x3072.Idx) :
    k0_pay1 (F := Ideal) (iblk0 V c 0 t) (iblk0 V c 1 t) j = productOf0 V c (((cfg0.win 2).blk t).view.emb j) := by
  obtain ⟨-, -, -, -, e0, e1⟩ := block_index_of_point0 t
  obtain ⟨r, cc, rfl⟩ : ∃ (r : Fin 512) (cc : Fin 3072), j = ix2 r cc := ⟨j 0, j 1, eq_ix2 j⟩
  refine (Cert.KernelIdeal.PayValue.k0_pay1_apply (iblk0 V c 0 t) (iblk0 V c 1 t) r cc).trans ?_
  unfold productOf0
  refine Finset.sum_congr rfl fun k _ => ?_
  have hr : ((((cfg0.win 2).blk t).view.emb (ix2 r cc)) 0).val = t.val * 512 + r.val := by
    show win0_2.index t (0 : Fin 2) * 512 + 1 * r.val = _; rw [e0]; omega
  have hc : ((((cfg0.win 2).blk t).view.emb (ix2 r cc)) 1).val = cc.val := by
    show win0_2.index t (1 : Fin 2) * 3072 + 1 * cc.val = _; rw [e1]; omega
  exact congrArg₂ (· * ·) (iblk0_0_apply V c t (ix2 r k) _ hr rfl) (iblk0_1_apply V c t (ix2 k cc) _ rfl hc)

/-- WHAT POINT t WRITES BACK is block t of the product. -/
theorem written_back_is_block0 (c : Dev nD) (t : Fin cfg0.N) :
    (dat0 V c).flushed 2 t = ((cfg0.win 2).blk t).view.read (Elt Ideal) (productOf0 V c) := by
  show (cfg0.win 2).cut (grid0.coords t) ((dat0 V c).after 2 t) = _
  rw [after0_2]
  unfold out0_2
  rw [View.canon_unit_zero zero_offsets0]
  simp only [View.ld_unit_zero (S := S512x1024) zero_offsets0, View.ld_unit_zero (S := S1024x3072) zero_offsets0]
  funext j
  exact point_product0 V c t j

/-- An index of the output is in point t's block iff each coordinate is in the block's range on its axis. -/
theorem mem_block_iff0 (t : Fin cfg0.N) (i : S4096x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v8).slice (win0_2.rect t)).set ↔ _
  rw [View.set_slice_whole, Rect.mem_set_unit]
  exact Iff.rfl

/-- Every row lies in some point's block: row r in that of point r / 512. -/
theorem blocks_cover_projections (i : S4096x3072.Idx) : ∃ t : Fin cfg0.N, (cfg0.win 2).flush t = true ∧ i ∈ ((cfg0.win 2).blk t).view.set := by
  have hi0 : (i 0).val < 4096 := (i 0).isLt
  have hi1 : (i 1).val < 3072 := (i 1).isLt
  have hN : cfg0.N = 8 := N_0
  let t : Fin cfg0.N := ⟨(i 0).val / 512, by rw [hN]; omega⟩
  have ht : t.val = (i 0).val / 512 := rfl
  obtain ⟨-, -, -, -, e0, e1⟩ := block_index_of_point0 t
  refine ⟨t, flush0_2 t, ?_⟩
  rw [mem_block_iff0]
  intro a
  match a with
  | ⟨0, _⟩ => show win0_2.index t (0 : Fin 2) * 512 ≤ (i 0).val ∧ (i 0).val < win0_2.index t (0 : Fin 2) * 512 + 512; rw [e0, ht]; omega
  | ⟨1, _⟩ => show win0_2.index t (1 : Fin 2) * 3072 ≤ (i 1).val ∧ (i 1).val < win0_2.index t (1 : Fin 2) * 3072 + 3072; rw [e1]; omega

/-- THE ARRAY after the eight points is the product. -/
theorem projections_array_eq (c : Dev nD) : (dat0 (F := Ideal) V c).arrAt 2 cfg0.N = productOf0 V c :=
  (dat0 V c).arrAt_eq_of_cover 2 (productOf0 V c) (fun t _ => written_back_is_block0 V c t) blocks_cover_projections

/-- Entry (r, j) of the first projection kernel's output. -/
theorem out0_apply (c : Dev nD) (r : Fin 4096) (j : Fin 3072) :
    res0 V c (ix2 r j) = ∑ k : Fin 1024, act0 V c (ix2 r k) * wts0 V c (ix2 k j) := by
  show (dat0 (F := Ideal) V c).arrAt 2 cfg0.N (ix2 r j) = _
  rw [projections_array_eq]
  rfl

end Cert.KernelIdeal.KValue

end
-- ==== Proof.PayAttnOps.lean ====
/-
  The operations of the attention body, each read at an index on the extended reals, over variables of the
  literal vector types: the two column forms a kept-dimension reduction needs (a vector [a] as a column [a, 1], a
  column repeated along the rows' second axis), the row maximum and the row sum over the 2048 key positions, the
  two matrix products (queries against keys, contracting the 64 lanes of a head; weights against values,
  contracting the key positions), the scaling of the query block by 1/8, the casts that drop the blocks' leading
  unit axis, and the slices that cut one head's 64 lanes out of a 128-lane block.
-/
import proofs.«176619_j57303453663372_2_alg».proof.Proof.Gen.KernelIdeal.Skeleton
import proofs.«176619_j57303453663372_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

variable [Cert.KernelIdeal.Facts]

/-- Lane d of head j of the pair of heads a 128-lane block holds. -/
def lane (j : Fin 2) (d : Fin 64) : Fin 128 := ⟨j.val * 64 + d.val, by omega⟩

/-- Logits of row r of the q block against key row k, for head j of the pair: every factor of q scaled by 1/8 first. -/
def blkScore (q : Vec Ideal S1x512x128 .bf16) (kk : Vec Ideal S1x2048x128 .bf16) (j : Fin 2) (r : Fin 512) (k : Fin 2048) : EReal :=
  ∑ d : Fin 64, (q (ix3 0 r (lane j d)) * Ideal.ofBits .bf16 0x3E00#16) * kk (ix3 0 k (lane j d))

/-! ## The two column forms of a kept-dimension reduction -/

/-- A vector [a] cast to a column [a, 1] reads, at (i, u), the operand at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value, made a column and repeated along the 2048 key positions, reads at (r, k) the value of row r. -/
theorem column_apply (x : FVec Ideal S512 .f32) (r : Fin 512) (k : Fin 2048) :
    broadcastTo S512x2048 (shapeCast S512x1 x Facts₀.shapeCasts_S512_S512x1) Facts₀.broadcasts_S512x1_S512x2048 (ix2 r k) = x (ix1 r) :=
  (broadcastTo_a1_ab_apply _ _ r k).trans (shapeCast_a_a1_apply x _ r 0)

/-! ## The reductions over the key positions -/

/-- The index a reduction over axis 1 reads for output row r and position k is (r, k). -/
theorem lift_row (r : Fin 512) (k : Fin 2048) :
    Facts₀.reduces_S512x2048_S512.lift (ix1 r) k = ix2 r k :=
  funext fun a => Fin.ext (by match a with | ⟨0, _⟩ => rfl | ⟨1, _⟩ => rfl)

/-- The accumulator word of the maximum is −∞. -/
theorem ofBits_neg_inf_f32 : Ideal.ofBits .f32 0xFF800000#32 = ⊥ := by simp [Ideal.ofBits, Ideal.ieee]

/-- The lane maximum of row r: the fold of max from −∞ over the row's 2048 entries. -/
theorem rowMax_apply (s : FVec Ideal S512x2048 .f32) (r : Fin 512) :
    multiReduction (F := Ideal) .maximumf [1] S512 s 0xFF800000#32 Facts₀.reduces_S512x2048_S512 (.inl rfl) rfl (ix1 r)
      = Cert.Attn.rowMax fun k => s (ix2 r k) := by
  refine (Ideal.multiReduction_maximumf_single s 0xFF800000#32 Facts₀.reduces_S512x2048_S512 (.inl rfl) rfl (ix1 r)).trans ?_
  have hl : (s ∘ Facts₀.reduces_S512x2048_S512.lift (ix1 r)) = fun k : Fin 2048 => s (ix2 r k) :=
    funext fun k => congrArg s (lift_row r k)
  show Finset.fold max (Ideal.ofBits .f32 0xFF800000#32) (s ∘ Facts₀.reduces_S512x2048_S512.lift (ix1 r)) (Finset.univ : Finset (Fin 2048))
    = Finset.fold max ⊥ (fun k : Fin 2048 => s (ix2 r k)) Finset.univ
  rw [hl, ofBits_neg_inf_f32]
  rfl

/-- The lane sum of row r: the sum of the row's 2048 entries. -/
theorem rowSum_apply (e : FVec Ideal S512x2048 .f32) (r : Fin 512) :
    multiReduction (F := Ideal) .add [1] S512 e 0x00000000#32 Facts₀.reduces_S512x2048_S512 (.inl rfl) rfl (ix1 r)
      = ∑ k : Fin 2048, e (ix2 r k) := by
  refine (Ideal.multiReduction_add_single e 0x00000000#32 Facts₀.reduces_S512x2048_S512 (.inl rfl) rfl (ix1 r)).trans ?_
  exact Finset.sum_congr rfl fun k _ => congrArg e (lift_row r k)

/-! ## The two matrix products -/

theorem matmul_qk_apply_lhs_non (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem matmul_qk_apply_lhs_con (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem matmul_qk_apply_rhs_non (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem matmul_qk_apply_rhs_con (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q
/-- Queries against keys, [512, 64] × [2048, 64] contracting the 64 lanes, into the zero accumulator: at (r, c) the
    inner product of row r of the queries with row c of the keys. -/
theorem matmul_qk_apply (q : FVec Ideal S512x64 .bf16) (kk : FVec Ideal S2048x64 .bf16) (r : Fin 512) (c : Fin 2048) :
    matmul dot_S512x64_S2048x64_S512x2048_1_1_0_0_n_n none q kk (constant (F := Ideal) S512x2048 .f32 0x00000000#32) (ix2 r c)
      = ∑ k : Fin 64, q (ix2 r k) * kk (ix2 c k) := by
  refine (Ideal.matmul_constant_zero_apply dot_S512x64_S2048x64_S512x2048_1_1_0_0_n_n none q kk (ix2 r c)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r c) ((contrEquiv1 dot_S512x64_S2048x64_S512x2048_1_1_0_0_n_n 64 rfl rfl).symm k) = ix2 r k :=
    funext fun a => Fin.ext (by
      match a with
      | ⟨0, _⟩ => exact matmul_qk_apply_lhs_non _ _
      | ⟨1, _⟩ => exact (matmul_qk_apply_lhs_con _ _).trans hk)
  have er : dot_S512x64_S2048x64_S512x2048_1_1_0_0_n_n.rhsIdx (ix2 r c) ((contrEquiv1 dot_S512x64_S2048x64_S512x2048_1_1_0_0_n_n 64 rfl rfl).symm k) = ix2 c k :=
    funext fun a => Fin.ext (by
      match a with
      | ⟨0, _⟩ => exact matmul_qk_apply_rhs_non _ _
      | ⟨1, _⟩ => exact (matmul_qk_apply_rhs_con _ _).trans hk)
  rw [el, er]

theorem matmul_pv_apply_lhs_non (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem matmul_pv_apply_lhs_con (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem matmul_pv_apply_rhs_non (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
theorem matmul_pv_apply_rhs_con (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- Weights against values, [512, 2048] × [2048, 64] contracting the key positions, into the zero accumulator. -/
theorem matmul_pv_apply (p : FVec Ideal S512x2048 .bf16) (vv : FVec Ideal S2048x64 .bf16) (r : Fin 512) (c : Fin 64) :
    matmul dot_S512x2048_S2048x64_S512x64_1_0_0_1_n_n none p vv (constant (F := Ideal) S512x64 .f32 0x00000000#32) (ix2 r c)
      = ∑ k : Fin 2048, p (ix2 r k) * vv (ix2 k c) := by
  refine (Ideal.matmul_constant_zero_apply dot_S512x2048_S2048x64_S512x64_1_0_0_1_n_n none p vv (ix2 r c)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r c) ((contrEquiv1 dot_S512x2048_S2048x64_S512x64_1_0_0_1_n_n 2048 rfl rfl).symm k) = ix2 r k :=
    funext fun a => Fin.ext (by
      match a with
      | ⟨0, _⟩ => exact matmul_pv_apply_lhs_non _ _
      | ⟨1, _⟩ => exact (matmul_pv_apply_lhs_con _ _).trans hk)
  have er : dot_S512x2048_S2048x64_S512x64_1_0_0_1_n_n.rhsIdx (ix2 r c) ((contrEquiv1 dot_S512x2048_S2048x64_S512x64_1_0_0_1_n_n 2048 rfl rfl).symm k) = ix2 k c :=
    funext fun a => Fin.ext (by
      match a with
      | ⟨1, _⟩ => exact matmul_pv_apply_rhs_non _ _
      | ⟨0, _⟩ => exact (matmul_pv_apply_rhs_con _ _).trans hk)
  rw [el, er]

/-! ## Scaling, casts and slices of the loaded blocks -/

/-- The query block with its unit axis dropped and every entry multiplied by 1/8. -/
theorem k1_pay4_apply (v0 : Vec Ideal S1x512x128 .bf16) (r : Fin 512) (l : Fin 128) :
    k1_pay4 (F := Ideal) v0 (ix2 r l) = v0 (ix3 0 r l) * Ideal.ofBits .bf16 0x3E00#16 := by
  unfold k1_pay4
  show shapeCast S512x128 v0 Facts₀.shapeCasts_S1x512x128_S512x128 (ix2 r l) * Ideal.ofBits .bf16 0x3E00#16 = _
  exact congrArg (· * Ideal.ofBits .bf16 0x3E00#16) (shapeCast_1ab_ab_apply v0 _ r l)

/-- The key block with its unit axis dropped. -/
theorem k1_pay2_apply (v2 : Vec Ideal S1x2048x128 .bf16) (k : Fin 2048) (l : Fin 128) :
    k1_pay2 (F := Ideal) v2 (ix2 k l) = v2 (ix3 0 k l) := by
  unfold k1_pay2
  exact shapeCast_1ab_ab_apply v2 _ k l

/-- The value block with its unit axis dropped. -/
theorem k1_pay3_apply (v4 : Vec Ideal S1x2048x128 .bf16) (k : Fin 2048) (l : Fin 128) :
    k1_pay3 (F := Ideal) v4 (ix2 k l) = v4 (ix3 0 k l) := by
  unfold k1_pay3
  exact shapeCast_1ab_ab_apply v4 _ k l

/-- Head 0 of the scaled query block: entry (r, d) is the query's lane 0 + d of row r, times 1/8. -/
theorem qslice0_apply (v0 : Vec Ideal S1x512x128 .bf16) (r : Fin 512) (d : Fin 64) :
    extractStridedSlice S512x64 ![0, 0] (k1_pay4 (F := Ideal) v0) Facts₀.slices_S512x128_o0_0_S512x64 (ix2 r d)
      = v0 (ix3 0 r (lane 0 d)) * Ideal.ofBits .bf16 0x3E00#16 :=
  (slice2_axis1_apply 0 _ _ r d (lane 0 d) (by simp [lane])).trans (k1_pay4_apply v0 r (lane 0 d))

/-- Head 0 of the key block: entry (k, d) is the block's lane 0 + d of row k. -/
theorem kslice0_apply (v2 : Vec Ideal S1x2048x128 .bf16) (k : Fin 2048) (d : Fin 64) :
    extractStridedSlice S2048x64 ![0, 0] (k1_pay2 (F := Ideal) v2) Facts₀.slices_S2048x128_o0_0_S2048x64 (ix2 k d)
      = v2 (ix3 0 k (lane 0 d)) :=
  (slice2_axis1_apply 0 _ _ k d (lane 0 d) (by simp [lane])).trans (k1_pay2_apply v2 k (lane 0 d))

/-- Head 0 of the value block, likewise. -/
theorem vslice0_apply (v4 : Vec Ideal S1x2048x128 .bf16) (k : Fin 2048) (d : Fin 64) :
    extractStridedSlice S2048x64 ![0, 0] (k1_pay3 (F := Ideal) v4) Facts₀.slices_S2048x128_o0_0_S2048x64 (ix2 k d)
      = v4 (ix3 0 k (lane 0 d)) :=
  (slice2_axis1_apply 0 _ _ k d (lane 0 d) (by simp [lane])).trans (k1_pay3_apply v4 k (lane 0 d))

/-- Head 1 of the scaled query block: entry (r, d) is the query's lane 64 + d of row r, times 1/8. -/
theorem qslice1_apply (v0 : Vec Ideal S1x512x128 .bf16) (r : Fin 512) (d : Fin 64) :
    extractStridedSlice S512x64 ![0, 64] (k1_pay4 (F := Ideal) v0) Facts₀.slices_S512x128_o0_64_S512x64 (ix2 r d)
      = v0 (ix3 0 r (lane 1 d)) * Ideal.ofBits .bf16 0x3E00#16 :=
  (slice2_axis1_apply 64 _ _ r d (lane 1 d) (by simp [lane])).trans (k1_pay4_apply v0 r (lane 1 d))

/-- Head 1 of the key block: entry (k, d) is the block's lane 64 + d of row k. -/
theorem kslice1_apply (v2 : Vec Ideal S1x2048x128 .bf16) (k : Fin 2048) (d : Fin 64) :
    extractStridedSlice S2048x64 ![0, 64] (k1_pay2 (F := Ideal) v2) Facts₀.slices_S2048x128_o0_64_S2048x64 (ix2 k d)
      = v2 (ix3 0 k (lane 1 d)) :=
  (slice2_axis1_apply 64 _ _ k d (lane 1 d) (by simp [lane])).trans (k1_pay2_apply v2 k (lane 1 d))

/-- Head 1 of the value block, likewise. -/
theorem vslice1_apply (v4 : Vec Ideal S1x2048x128 .bf16) (k : Fin 2048) (d : Fin 64) :
    extractStridedSlice S2048x64 ![0, 64] (k1_pay3 (F := Ideal) v4) Facts₀.slices_S2048x128_o0_64_S2048x64 (ix2 k d)
      = v4 (ix3 0 k (lane 1 d)) :=
  (slice2_axis1_apply 64 _ _ k d (lane 1 d) (by simp [lane])).trans (k1_pay3_apply v4 k (lane 1 d))

end Cert.KernelIdeal.PayValue

end
-- ==== Proof.PayAttn.lean ====
/-
  The attention body read at an index on the extended reals.

  For each of the two heads a 128-lane block holds, the body cuts the head's 64 lanes out of the scaled query block
  and of the key and value blocks, forms the logits (queries against keys), subtracts each row's maximum,
  exponentiates, divides by the row's sum, and multiplies the weights into the values. Its tail after the logits is
  named here as three functions (rows exponentiated, rows normalised, weights against values), each read at an index;
  the printed terms are these functions composed, by unfolding. The result: entry (r, d) of what the body stores for
  head j is  ∑_k softmax(score_j[r, ·])[k] · V[k, j·64 + d].
-/
import proofs.«176619_j57303453663372_2_alg».proof.Proof.Gen.KernelIdeal.Skeleton
import proofs.«176619_j57303453663372_2_alg».proof.Proof.Spec
import proofs.«176619_j57303453663372_2_alg».proof.Proof.PayAttnOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

variable [Cert.KernelIdeal.Facts]

/-! ## The tail of a head, after its logits -/

/-- Each row's entries minus the row's maximum, exponentiated. -/
def expRows (s : FVec Ideal S512x2048 .f32) : FVec Ideal S512x2048 .f32 :=
  exp (subf s (broadcastTo S512x2048 (shapeCast S512x1 (multiReduction (F := Ideal) .maximumf [1] S512 s 0xFF800000#32 Facts₀.reduces_S512x2048_S512 (.inl rfl) rfl) Facts₀.shapeCasts_S512_S512x1) Facts₀.broadcasts_S512x1_S512x2048))

/-- Each row divided by its sum (and the format changed, which on the extended reals changes nothing). -/
def normRows (e : FVec Ideal S512x2048 .f32) : FVec Ideal S512x2048 .bf16 :=
  truncf .bf16 (divf e (broadcastTo S512x2048 (shapeCast S512x1 (multiReduction (F := Ideal) .add [1] S512 e 0x00000000#32 Facts₀.reduces_S512x2048_S512 (.inl rfl) rfl) Facts₀.shapeCasts_S512_S512x1) Facts₀.broadcasts_S512x1_S512x2048)) Facts₀.bitsLt_bf16_f32

/-- Weights against a head's values, with the block's leading unit axis put back. -/
def ctxOf (p : FVec Ideal S512x2048 .bf16) (vv : FVec Ideal S2048x64 .bf16) : FVec Ideal S1x512x64 .bf16 :=
  shapeCast S1x512x64
    (truncf .bf16 (matmul dot_S512x2048_S2048x64_S512x64_1_0_0_1_n_n none p vv (constant (F := Ideal) S512x64 .f32 0x00000000#32)) Facts₀.bitsLt_bf16_f32)
    Facts₀.shapeCasts_S512x64_S1x512x64

theorem expRows_apply (s : FVec Ideal S512x2048 .f32) (r : Fin 512) (k : Fin 2048) :
    expRows s (ix2 r k) = Ideal.exp (s (ix2 r k) - Cert.Attn.rowMax fun k' => s (ix2 r k')) := by
  unfold expRows
  exact congrArg (fun m => Ideal.exp (s (ix2 r k) - m)) ((column_apply _ r k).trans (rowMax_apply s r))

theorem normRows_apply (e : FVec Ideal S512x2048 .f32) (r : Fin 512) (k : Fin 2048) :
    normRows e (ix2 r k) = Ideal.div (e (ix2 r k)) (∑ k' : Fin 2048, e (ix2 r k')) := by
  unfold normRows
  exact congrArg (fun m => Ideal.div (e (ix2 r k)) m) ((column_apply _ r k).trans (rowSum_apply e r))

theorem ctxOf_apply (p : FVec Ideal S512x2048 .bf16) (vv : FVec Ideal S2048x64 .bf16) (r : Fin 512) (d : Fin 64) :
    ctxOf p vv (ix3 0 r d) = ∑ k : Fin 2048, p (ix2 r k) * vv (ix2 k d) := by
  unfold ctxOf
  exact (shapeCast_ab_1ab_apply _ _ 0 r d).trans (matmul_pv_apply p vv r d)

/-- Rows exponentiated and then normalised are the softmax of the rows: for logits whose row r is R. -/
theorem softmax_rows (s : FVec Ideal S512x2048 .f32) (R : Fin 2048 → EReal) (r : Fin 512) (hs : ∀ k, s (ix2 r k) = R k)
    (k : Fin 2048) : normRows (expRows s) (ix2 r k) = Cert.Attn.softmax R k := by
  have hR : (fun k' => s (ix2 r k')) = R := funext hs
  have he : ∀ k', expRows s (ix2 r k') = Ideal.exp (R k' - Cert.Attn.rowMax R) := fun k' => by
    rw [expRows_apply, hR, hs k']
  have hsum : ∑ k' : Fin 2048, expRows s (ix2 r k') = ∑ k' : Fin 2048, Ideal.exp (R k' - Cert.Attn.rowMax R) :=
    Finset.sum_congr rfl fun k' _ => he k'
  rw [normRows_apply, he k, hsum]
  rfl

/-! ## The logits of the two heads -/

/-- The logits of head 0 of the pair, as the body computes them: the scaled queries' lanes 0 … 63 against the keys' same lanes. -/
def logits0 (v0 : Vec Ideal S1x512x128 .bf16) (v2 : Vec Ideal S1x2048x128 .bf16) : FVec Ideal S512x2048 .f32 :=
  matmul dot_S512x64_S2048x64_S512x2048_1_1_0_0_n_n none
    (extractStridedSlice S512x64 ![0, 0] (k1_pay4 (F := Ideal) v0) Facts₀.slices_S512x128_o0_0_S512x64)
    (extractStridedSlice S2048x64 ![0, 0] (k1_pay2 (F := Ideal) v2) Facts₀.slices_S2048x128_o0_0_S2048x64)
    (constant (F := Ideal) S512x2048 .f32 0x00000000#32)

/-- Entry (r, k) of those logits is the block's score of row r against key row k for head 0. -/
theorem logits0_apply (v0 : Vec Ideal S1x512x128 .bf16) (v2 : Vec Ideal S1x2048x128 .bf16) (r : Fin 512) (k : Fin 2048) :
    logits0 v0 v2 (ix2 r k) = blkScore v0 v2 0 r k := by
  unfold logits0 blkScore
  refine (matmul_qk_apply _ _ r k).trans (Finset.sum_congr rfl fun d _ => ?_)
  exact congrArg₂ (· * ·) (qslice0_apply v0 r d) (kslice0_apply v2 k d)

/-- The logits of head 1 of the pair, as the body computes them: the scaled queries' lanes 64 … 127 against the keys' same lanes. -/
def logits1 (v0 : Vec Ideal S1x512x128 .bf16) (v2 : Vec Ideal S1x2048x128 .bf16) : FVec Ideal S512x2048 .f32 :=
  matmul dot_S512x64_S2048x64_S512x2048_1_1_0_0_n_n none
    (extractStridedSlice S512x64 ![0, 64] (k1_pay4 (F := Ideal) v0) Facts₀.slices_S512x128_o0_64_S512x64)
    (extractStridedSlice S2048x64 ![0, 64] (k1_pay2 (F := Ideal) v2) Facts₀.slices_S2048x128_o0_64_S2048x64)
    (constant (F := Ideal) S512x2048 .f32 0x00000000#32)

/-- Entry (r, k) of those logits is the block's score of row r against key row k for head 1. -/
theorem logits1_apply (v0 : Vec Ideal S1x512x128 .bf16) (v2 : Vec Ideal S1x2048x128 .bf16) (r : Fin 512) (k : Fin 2048) :
    logits1 v0 v2 (ix2 r k) = blkScore v0 v2 1 r k := by
  unfold logits1 blkScore
  refine (matmul_qk_apply _ _ r k).trans (Finset.sum_congr rfl fun d _ => ?_)
  exact congrArg₂ (· * ·) (qslice1_apply v0 r d) (kslice1_apply v2 k d)

/-! ## The printed terms are these functions composed -/

theorem k1_pay5_eq (v0 : Vec Ideal S1x512x128 .bf16) (v2 v4 : Vec Ideal S1x2048x128 .bf16) :
    k1_pay5 (F := Ideal) v0 v2 v4
      = ctxOf (normRows (expRows (logits0 v0 v2)))
          (extractStridedSlice S2048x64 ![0, 0] (k1_pay3 (F := Ideal) v4) Facts₀.slices_S2048x128_o0_0_S2048x64) := rfl

theorem k1_pay7_eq (v0 : Vec Ideal S1x512x128 .bf16) (v2 : Vec Ideal S1x2048x128 .bf16) :
    k1_pay7 (F := Ideal) v0 v2 = expRows (logits1 v0 v2) := rfl

theorem k1_pay1_eq (v29 : FVec Ideal S2048x64 .bf16) (v35 : FVec Ideal S512x2048 .f32) :
    k1_pay1 (F := Ideal) v29 v35 = ctxOf (normRows v35) v29 := rfl

theorem k1_pay6_apply (v4 : Vec Ideal S1x2048x128 .bf16) (k : Fin 2048) (d : Fin 64) :
    k1_pay6 (F := Ideal) v4 (ix2 k d) = v4 (ix3 0 k (lane 1 d)) := by
  unfold k1_pay6
  exact vslice1_apply v4 k d

/-! ## What the body stores -/

/-- Head 0 of the pair: entry (r, d) is the softmax of row r's logits against lane d of the values. -/
theorem k1_pay5_apply (v0 : Vec Ideal S1x512x128 .bf16) (v2 v4 : Vec Ideal S1x2048x128 .bf16) (r : Fin 512) (d : Fin 64) :
    k1_pay5 (F := Ideal) v0 v2 v4 (ix3 0 r d) = ∑ k : Fin 2048, Cert.Attn.softmax (blkScore v0 v2 0 r) k * v4 (ix3 0 k (lane 0 d)) := by
  rw [k1_pay5_eq, ctxOf_apply]
  refine Finset.sum_congr rfl fun k _ => ?_
  exact congrArg₂ (· * ·) (softmax_rows _ _ r (fun k' => logits0_apply v0 v2 r k') k) (vslice0_apply v4 k d)

/-- Head 1 of the pair, whose values and exponentiated logits cross a part boundary of the body. -/
theorem k1_pay1_apply (v0 : Vec Ideal S1x512x128 .bf16) (v2 v4 : Vec Ideal S1x2048x128 .bf16) (r : Fin 512) (d : Fin 64) :
    k1_pay1 (F := Ideal) (k1_pay6 v4) (k1_pay7 v0 v2) (ix3 0 r d) = ∑ k : Fin 2048, Cert.Attn.softmax (blkScore v0 v2 1 r) k * v4 (ix3 0 k (lane 1 d)) := by
  rw [k1_pay1_eq, k1_pay7_eq, ctxOf_apply]
  refine Finset.sum_congr rfl fun k _ => ?_
  exact congrArg₂ (· * ·) (softmax_rows _ _ r (fun k' => logits1_apply v0 v2 r k') k) (k1_pay6_apply v4 k d)

end Cert.KernelIdeal.PayValue

end
-- ==== Proof.KVal1Block.lean ====
/-
  The attention body's output block read at an index on the extended reals, over variables for the three loaded
  blocks. The body writes the [1, 512, 128] block by two half-width stores, one per head of the pair: lanes 0–63
  read the first head's context, lanes 64–127 the second head's, so lane d of head j at row r is the softmax of that
  head's logits of row r against lane d of its values.
-/
import proofs.«176619_j57303453663372_2_alg».proof.Proof.KIRegion1
import proofs.«176619_j57303453663372_2_alg».proof.Proof.PayAttn
import proofs.«176619_j57303453663372_2_alg».proof.Proof.Spec
import Idealize.ShloMosaic.Lib.Pipeline.Value
import Idealize.ShloMosaic.Lib.ValueIdx

noncomputable section

namespace Cert.KernelIdeal.KValue

open Cert.KernelIdeal Cert.KernelIdeal.Gen Cert.KernelIdeal.Hand Cert.KernelIdeal.PayValue Idealize.ShloMosaic Idealize.ShloMosaic.ValueIdx
open Idealize.ShloMosaic.TcCoe Idealize.SL.Sem
open Idealize.ShloMosaic.Pipeline (Dat)

/-! ## The output block: its two 64-lane halves -/

theorem zero_offsets3 : (![0, 0, 0] : Fin 3 → Nat) = fun _ => 0 := funext fun a => by fin_cases a <;> rfl

/-- Lane d of the first half of the block sits at lane d of the low rectangle. -/
theorem lo_emb (r : Fin 512) (d : Fin 64) : (ix3 (0 : Fin 1) r (lane 0 d) : S1x512x128.Idx) = r1_lo.emb (ix3 0 r d) :=
  funext fun a => Fin.ext (by
    match a with
    | ⟨0, _⟩ => rfl
    | ⟨1, _⟩ => show r.val = 0 + 1 * r.val; omega
    | ⟨2, _⟩ => show (lane 0 d).val = 0 + 1 * d.val; simp [lane])

/-- Lane d of the second half sits at lane d of the high rectangle. -/
theorem hi_emb (r : Fin 512) (d : Fin 64) : (ix3 (0 : Fin 1) r (lane 1 d) : S1x512x128.Idx) = r1_hi.emb (ix3 0 r d) :=
  funext fun a => Fin.ext (by
    match a with
    | ⟨0, _⟩ => rfl
    | ⟨1, _⟩ => show r.val = 0 + 1 * r.val; omega
    | ⟨2, _⟩ => show (lane 1 d).val = 64 + 1 * d.val; simp [lane])

/-- A lane below 64 is outside the high rectangle. -/
theorem lo_not_mem_hi (r : Fin 512) (d : Fin 64) : (ix3 (0 : Fin 1) r (lane 0 d) : S1x512x128.Idx) ∉ r1_hi.set := fun h => by
  have h2 := (Rect.mem_set_unit.mp h) 2
  have h3 : (64 : Nat) ≤ (lane 0 d).val := h2.1
  simp [lane] at h3
  omega

/-- Two half-width stores, the high half last: lanes 0–63 read the low store's payload, -/
theorem canon_halves_lo (p1 p0 : Vec Ideal S1x512x64 .bf16) (r : Fin 512) (d : Fin 64) :
    View.canon ([⟨r1_hi, p1⟩, ⟨r1_lo, p0⟩] : List (View.Piece (Elt Ideal) S1x512x128 .bf16)) (ix3 0 r (lane 0 d)) = p0 (ix3 0 r d) := by
  refine (View.canon_cons_of_not_mem (⟨r1_hi, p1⟩ : View.Piece (Elt Ideal) S1x512x128 .bf16) [⟨r1_lo, p0⟩] (lo_not_mem_hi r d)).trans ?_
  rw [lo_emb]
  exact View.canon_cons_emb r1_lo p0 [] (ix3 0 r d)

/-- and lanes 64–127 the high store's. -/
theorem canon_halves_hi (p1 p0 : Vec Ideal S1x512x64 .bf16) (r : Fin 512) (d : Fin 64) :
    View.canon ([⟨r1_hi, p1⟩, ⟨r1_lo, p0⟩] : List (View.Piece (Elt Ideal) S1x512x128 .bf16)) (ix3 0 r (lane 1 d)) = p1 (ix3 0 r d) := by
  rw [hi_emb]
  exact View.canon_cons_emb r1_hi p1 [⟨r1_lo, p0⟩] (ix3 0 r d)

/-- Lanes 0–63 of the block hold the first head's context. -/
theorem out1_3_lo (x0 : Vec Ideal S1x512x128 .bf16) (x1 x2 : Vec Ideal S1x2048x128 .bf16) (r : Fin 512) (d : Fin 64) :
    out1_3 x0 x1 x2 (ix3 0 r (lane 0 d)) = k1_pay5 (F := Ideal) x0 x1 x2 (ix3 0 r d) := by
  unfold out1_3
  simp only [View.ld_unit_zero (S := S1x512x128) zero_offsets3, View.ld_unit_zero (S := S1x2048x128) zero_offsets3]
  exact canon_halves_lo _ _ r d

/-- Lanes 64–127 hold the second head's. -/
theorem out1_3_hi (x0 : Vec Ideal S1x512x128 .bf16) (x1 x2 : Vec Ideal S1x2048x128 .bf16) (r : Fin 512) (d : Fin 64) :
    out1_3 x0 x1 x2 (ix3 0 r (lane 1 d)) = k1_pay1 (F := Ideal) (k1_pay6 x2) (k1_pay7 x0 x1) (ix3 0 r d) := by
  unfold out1_3
  simp only [View.ld_unit_zero (S := S1x512x128) zero_offsets3, View.ld_unit_zero (S := S1x2048x128) zero_offsets3]
  exact canon_halves_hi _ _ r d

/-- So lane d of head j of the block is the softmax of that head's logits of row r against lane d of its values. -/
theorem out1_3_apply (x0 : Vec Ideal S1x512x128 .bf16) (x1 x2 : Vec Ideal S1x2048x128 .bf16) (j : Fin 2) (r : Fin 512) (d : Fin 64) :
    out1_3 x0 x1 x2 (ix3 0 r (lane j d))
      = ∑ k : Fin 2048, Cert.Attn.softmax (blkScore x0 x1 j r) k * x2 (ix3 0 k (lane j d)) := by
  match j with
  | ⟨0, _⟩ => exact (out1_3_lo x0 x1 x2 r d).trans (k1_pay5_apply x0 x1 x2 r d)
  | ⟨1, _⟩ => exact (out1_3_hi x0 x1 x2 r d).trans (k1_pay1_apply x0 x1 x2 r d)

end Cert.KernelIdeal.KValue

end
-- ==== Proof.KVal1.lean ====
/-
  The attention region's output array after its 64 grid points, read at an index on the extended reals, for any
  contents V the region is entered with.

  Point t, with coordinates (b, hp, qi), reads the projections [2, 2048, 3072] through three windows — the query block
  [1, 512, 128] at block (b, qi, hp), the key block [1, 2048, 128] at (b, 0, 8 + hp), the value block at
  (b, 0, 16 + hp) — and writes the output block [1, 512, 128] at (b, qi, hp) of the array [2, 2048, 1024]. What it writes
  is the block of ONE function of the projections, index by index; the 64 output blocks tile the array; so the array
  ends holding that function.
-/
import proofs.«176619_j57303453663372_2_alg».proof.Proof.KIRegion1
import proofs.«176619_j57303453663372_2_alg».proof.Proof.PayAttn
import proofs.«176619_j57303453663372_2_alg».proof.Proof.Spec
import Idealize.ShloMosaic.Lib.Pipeline.Value
import Idealize.ShloMosaic.Lib.ValueIdx
import proofs.«176619_j57303453663372_2_alg».proof.Proof.KVal1Block

noncomputable section

namespace Cert.KernelIdeal.KValue

open Cert.KernelIdeal Cert.KernelIdeal.Gen Cert.KernelIdeal.Hand Cert.KernelIdeal.PayValue Idealize.ShloMosaic Idealize.ShloMosaic.ValueIdx
open Idealize.ShloMosaic.TcCoe Idealize.SL.Sem
open Idealize.ShloMosaic.Pipeline (Dat)

/-! ## The grid: where each window's block sits -/

/-- The printed index maps, decided over the 64 grid points: the query block moves with the output block; the key
    and value blocks have the output's batch, row block 0, and the output's column block shifted by 8 and by 16;
    and the output's block indices stay in their ranges. -/
theorem block_index_of_point : ∀ t : Fin cfg1.N,
      win1_0.index t (0 : Fin 3) = win1_3.index t (0 : Fin 3) ∧ win1_0.index t (1 : Fin 3) = win1_3.index t (1 : Fin 3) ∧ win1_0.index t (2 : Fin 3) = win1_3.index t (2 : Fin 3)
    ∧ win1_1.index t (0 : Fin 3) = win1_3.index t (0 : Fin 3) ∧ win1_1.index t (1 : Fin 3) = 0 ∧ win1_1.index t (2 : Fin 3) = 8 + win1_3.index t (2 : Fin 3)
    ∧ win1_2.index t (0 : Fin 3) = win1_3.index t (0 : Fin 3) ∧ win1_2.index t (1 : Fin 3) = 0 ∧ win1_2.index t (2 : Fin 3) = 16 + win1_3.index t (2 : Fin 3)
    ∧ win1_3.index t (0 : Fin 3) ≤ 1 ∧ win1_3.index t (1 : Fin 3) ≤ 3 ∧ win1_3.index t (2 : Fin 3) ≤ 7 :=
  (by decide +kernel : ∀ t : Fin grid1.N, _)

/-- Every output block is some point's. -/
theorem point_of_block_index : ∀ (q0 : Fin 2) (q1 : Fin 4) (q2 : Fin 8), ∃ t : Fin cfg1.N, win1_3.index t = ![q0.val, q1.val, q2.val] :=
  (by decide +kernel : ∀ (q0 : Fin 2) (q1 : Fin 4) (q2 : Fin 8), ∃ t : Fin grid1.N, win1_3.index t = ![q0.val, q1.val, q2.val])

variable (V : (c : Dev nD) → (b : Ref sig .tc) → Buf (Elt Ideal) ((c : Thread nD τ).loc b))

/-- The query block at point t: row y, lane l of it is the projections' entry at the output block's batch, row
    (row block)·512 + y, and column (column block)·128 + l of the first third. -/
theorem iblk1_0_apply (c : Dev nD) (t : Fin cfg1.N) (y : Fin 512) (l : Fin 128) (b : Fin 2) (s : Fin 2048) (e : Fin 3072)
    (hb : b.val = win1_3.index t (0 : Fin 3)) (hs : s.val = win1_3.index t (1 : Fin 3) * 512 + y.val)
    (he : e.val = 0 + win1_3.index t (2 : Fin 3) * 128 + l.val) :
    (iblk1 V c 0 t : Vec Ideal S1x512x128 .bf16) (ix3 0 y l) = (V c main_v9 : S2x2048x3072.Idx → EReal) (ix3 b s e) := by
  obtain ⟨e00, e01, e02, e10, e11, e12, e20, e21, e22, -⟩ := block_index_of_point t
  unfold iblk1
  show (V c main_v9 : S2x2048x3072.Idx → EReal) (((cfg1.win 0).blk t).view.emb (ix3 0 y l)) = _
  refine congrArg (V c main_v9 : S2x2048x3072.Idx → EReal) (funext fun a => Fin.ext ?_)
  match a with
  | ⟨0, _⟩ => show win1_0.index t (0 : Fin 3) * 1 + 1 * 0 = b.val; omega
  | ⟨1, _⟩ => show win1_0.index t (1 : Fin 3) * 512 + 1 * y.val = s.val; omega
  | ⟨2, _⟩ => show win1_0.index t (2 : Fin 3) * 128 + 1 * l.val = e.val; omega

/-- The key block at point t: row y, lane l of it is the projections' entry at the same batch, row y, and column
    1024 + (column block)·128 + l. -/
theorem iblk1_1_apply (c : Dev nD) (t : Fin cfg1.N) (y : Fin 2048) (l : Fin 128) (b : Fin 2) (s : Fin 2048) (e : Fin 3072)
    (hb : b.val = win1_3.index t (0 : Fin 3)) (hs : s.val = y.val)
    (he : e.val = 1024 + win1_3.index t (2 : Fin 3) * 128 + l.val) :
    (iblk1 V c 1 t : Vec Ideal S1x2048x128 .bf16) (ix3 0 y l) = (V c main_v9 : S2x2048x3072.Idx → EReal) (ix3 b s e) := by
  obtain ⟨e00, e01, e02, e10, e11, e12, e20, e21, e22, -⟩ := block_index_of_point t
  unfold iblk1
  show (V c main_v9 : S2x2048x3072.Idx → EReal) (((cfg1.win 1).blk t).view.emb (ix3 0 y l)) = _
  refine congrArg (V c main_v9 : S2x2048x3072.Idx → EReal) (funext fun a => Fin.ext ?_)
  match a with
  | ⟨0, _⟩ => show win1_1.index t (0 : Fin 3) * 1 + 1 * 0 = b.val; omega
  | ⟨1, _⟩ => show win1_1.index t (1 : Fin 3) * 2048 + 1 * y.val = s.val; omega
  | ⟨2, _⟩ => show win1_1.index t (2 : Fin 3) * 128 + 1 * l.val = e.val; omega

/-- The value block likewise, at column 2048 + (column block)·128 + l. -/
theorem iblk1_2_apply (c : Dev nD) (t : Fin cfg1.N) (y : Fin 2048) (l : Fin 128) (b : Fin 2) (s : Fin 2048) (e : Fin 3072)
    (hb : b.val = win1_3.index t (0 : Fin 3)) (hs : s.val = y.val)
    (he : e.val = 2048 + win1_3.index t (2 : Fin 3) * 128 + l.val) :
    (iblk1 V c 2 t : Vec Ideal S1x2048x128 .bf16) (ix3 0 y l) = (V c main_v9 : S2x2048x3072.Idx → EReal) (ix3 b s e) := by
  obtain ⟨e00, e01, e02, e10, e11, e12, e20, e21, e22, -⟩ := block_index_of_point t
  unfold iblk1
  show (V c main_v9 : S2x2048x3072.Idx → EReal) (((cfg1.win 2).blk t).view.emb (ix3 0 y l)) = _
  refine congrArg (V c main_v9 : S2x2048x3072.Idx → EReal) (funext fun a => Fin.ext ?_)
  match a with
  | ⟨0, _⟩ => show win1_2.index t (0 : Fin 3) * 1 + 1 * 0 = b.val; omega
  | ⟨1, _⟩ => show win1_2.index t (1 : Fin 3) * 2048 + 1 * y.val = s.val; omega
  | ⟨2, _⟩ => show win1_2.index t (2 : Fin 3) * 128 + 1 * l.val = e.val; omega

/-- An entry of the output block at point t sits in the output array at the block's batch, row (row block)·512 + y
    and column (column block)·128 + l. -/
theorem blk3_emb (t : Fin cfg1.N) (y : Fin 512) (l : Fin 128) :
    ∃ (b : Fin 2) (s : Fin 2048) (e : Fin 1024), b.val = win1_3.index t (0 : Fin 3) ∧ s.val = win1_3.index t (1 : Fin 3) * 512 + y.val
      ∧ e.val = win1_3.index t (2 : Fin 3) * 128 + l.val
      ∧ ((cfg1.win 3).blk t).view.emb (ix3 0 y l : S1x512x128.Idx) = (ix3 b s e : S2x2048x1024.Idx) := by
  obtain ⟨-, -, -, -, -, -, -, -, -, g0, g1, g2⟩ := block_index_of_point t
  refine ⟨⟨win1_3.index t (0 : Fin 3), by omega⟩, ⟨win1_3.index t (1 : Fin 3) * 512 + y.val, by omega⟩,
    ⟨win1_3.index t (2 : Fin 3) * 128 + l.val, by omega⟩, rfl, rfl, rfl, funext fun a => Fin.ext ?_⟩
  match a with
  | ⟨0, _⟩ => show win1_3.index t (0 : Fin 3) * 1 + 1 * 0 = win1_3.index t (0 : Fin 3); omega
  | ⟨1, _⟩ => show win1_3.index t (1 : Fin 3) * 512 + 1 * y.val = win1_3.index t (1 : Fin 3) * 512 + y.val; omega
  | ⟨2, _⟩ => show win1_3.index t (2 : Fin 3) * 128 + 1 * l.val = win1_3.index t (2 : Fin 3) * 128 + l.val; omega

/-! ## The array as one function of the projections -/

/-- Column c of the query third of the projections' 3072 columns. -/
def qcol (c : Fin 1024) : Fin 3072 := ⟨c.val, by omega⟩
/-- Column c of the key third. -/
def kcol (c : Fin 1024) : Fin 3072 := ⟨1024 + c.val, by omega⟩
/-- Column c of the value third. -/
def vcol (c : Fin 1024) : Fin 3072 := ⟨2048 + c.val, by omega⟩

/-- The context at (b, s, e), from the projections array P: the softmax over the key rows of the logits of the head
    owning column e (the query row's 64 lanes, each scaled by 1/8, against each key row's), against column e of the
    value third. -/
def ctxAt (P : S2x2048x3072.Idx → EReal) (b : Fin 2) (s : Fin 2048) (e : Fin 1024) : EReal :=
  ∑ k : Fin 2048, Cert.Attn.softmax (fun k' => ∑ d : Fin 64,
        (P (ix3 b s (qcol (Cert.Attn.col (Cert.Attn.headOf e) d))) * Ideal.ofBits .bf16 0x3E00#16)
          * P (ix3 b k' (kcol (Cert.Attn.col (Cert.Attn.headOf e) d)))) k
      * P (ix3 b k (vcol e))

/-- The whole output array as that function of its index. -/
def contextOf (P : S2x2048x3072.Idx → EReal) : S2x2048x1024.Idx → EReal := fun i => ctxAt P (i 0) (i 1) (i 2)

/-- Every lane of a 128-lane block is lane d of one of its two heads. -/
theorem lane_surj (l : Fin 128) : ∃ (j : Fin 2) (d : Fin 64), l = lane j d :=
  ⟨⟨l.val / 64, by omega⟩, ⟨l.val % 64, by omega⟩, Fin.ext (by show l.val = l.val / 64 * 64 + l.val % 64; omega)⟩

/-- WHAT POINT t WRITES BACK is block t of that one function of the projections as the region finds them. -/
theorem written_back_is_block (c : Dev nD) (t : Fin cfg1.N) :
    (dat1 (F := Ideal) V c).flushed 3 t = ((cfg1.win 3).blk t).view.read (Elt Ideal) (contextOf (V c main_v9)) := by
  show (cfg1.win 3).cut (grid1.coords t) ((dat1 (F := Ideal) V c).after 3 t) = _
  rw [after1_3]
  funext j
  obtain ⟨u, y, l, rfl⟩ : ∃ (u : Fin 1) (y : Fin 512) (l : Fin 128), (j : S1x512x128.Idx) = ix3 u y l :=
    ⟨j 0, j 1, j 2, eq_ix3 (n0 := 1) (n1 := 512) (n2 := 128) j⟩
  obtain rfl : u = 0 := Fin.ext (by omega)
  obtain ⟨jh, d, rfl⟩ := lane_surj l
  obtain ⟨b, s, e, hb, hs, he, hi⟩ := blk3_emb t y (lane jh d)
  show out1_3 (iblk1 V c 0 t) (iblk1 V c 1 t) (iblk1 V c 2 t) (ix3 0 y (lane jh d))
    = contextOf (V c main_v9) (((cfg1.win 3).blk t).view.emb (ix3 0 y (lane jh d) : S1x512x128.Idx))
  rw [hi]
  refine (out1_3_apply (iblk1 V c 0 t) (iblk1 V c 1 t) (iblk1 V c 2 t) jh y d).trans ?_
  show _ = ctxAt (V c main_v9) b s e
  unfold ctxAt blkScore
  obtain ⟨-, -, -, -, -, -, -, -, -, g0, g1, g2⟩ := block_index_of_point t
  have he' : e.val = win1_3.index t (2 : Fin 3) * 128 + (jh.val * 64 + d.val) := he
  refine Finset.sum_congr rfl fun k _ => congrArg₂ (· * ·) ?_ ?_
  · refine congrArg (fun R => Cert.Attn.softmax R k) (funext fun k' => Finset.sum_congr rfl fun d' _ => ?_)
    refine congrArg₂ (· * ·) (congrArg (· * Ideal.ofBits .bf16 0x3E00#16) ?_) ?_
    · exact iblk1_0_apply V c t y (lane jh d') b s _ hb hs (by
        show e.val / 64 * 64 + d'.val = 0 + win1_3.index t (2 : Fin 3) * 128 + (jh.val * 64 + d'.val); omega)
    · exact iblk1_1_apply V c t k' (lane jh d') b k' _ hb rfl (by
        show 1024 + (e.val / 64 * 64 + d'.val) = 1024 + win1_3.index t (2 : Fin 3) * 128 + (jh.val * 64 + d'.val); omega)
  · exact iblk1_2_apply V c t k (lane jh d) b k _ hb rfl (by
      show 2048 + e.val = 2048 + win1_3.index t (2 : Fin 3) * 128 + (jh.val * 64 + d.val); omega)

/-- An index of the array is in point t's block iff each coordinate is in the block's range on its axis. -/
theorem mem_block_iff (t : Fin cfg1.N) (i : S2x2048x1024.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v10).slice (win1_3.rect t)).set ↔ _
  rw [View.set_slice_whole, Rect.mem_set_unit]
  exact Iff.rfl

/-- The output's blocks tile the array: index (b, s, e) is in the block of the point whose output block is
    (b, s / 512, e / 128). -/
theorem blocks_cover_context (i : S2x2048x1024.Idx) : ∃ t : Fin cfg1.N, (cfg1.win 3).flush t = true ∧ i ∈ ((cfg1.win 3).blk t).view.set := by
  have h0 : (i 0).val < 2 := (i 0).isLt
  have h1 : (i 1).val < 2048 := (i 1).isLt
  have h2 : (i 2).val < 1024 := (i 2).isLt
  obtain ⟨t, ht⟩ := point_of_block_index ⟨(i 0).val, h0⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_block_iff]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- THE ARRAY after the region's 64 points: that one function of the projections. -/
theorem context_array_eq (c : Dev nD) : (dat1 (F := Ideal) V c).arrAt 3 cfg1.N = contextOf (V c main_v9) :=
  (dat1 (F := Ideal) V c).arrAt_eq_of_cover 3 (contextOf (V c main_v9)) (fun t _ => written_back_is_block V c t) blocks_cover_context

/-- The attention region's output array read at (b, s, e), through the function named above. -/
theorem out1_eq (c : Dev nD) (b : Fin 2) (s : Fin 2048) (e : Fin 1024) :
    (dat1 (F := Ideal) V c).arrAt 3 cfg1.N (ix3 b s e) = ctxAt (V c main_v9) b s e :=
  congrFun (context_array_eq V c) (ix3 b s e)

/-- The projections array [2, 2048, 3072] as the region finds it, read as a function into the extended reals. -/
abbrev projArr (c : Dev nD) : S2x2048x3072.Idx → EReal := V c main_v9

/-- The same with the function written out. -/
theorem out1_apply (c : Dev nD) (b : Fin 2) (s : Fin 2048) (e : Fin 1024) :
    (dat1 (F := Ideal) V c).arrAt 3 cfg1.N (ix3 b s e)
      = ∑ k : Fin 2048, Cert.Attn.softmax (fun k' => ∑ d : Fin 64,
            (projArr V c (ix3 b s (qcol (Cert.Attn.col (Cert.Attn.headOf e) d))) * Ideal.ofBits .bf16 0x3E00#16)
              * projArr V c (ix3 b k' (kcol (Cert.Attn.col (Cert.Attn.headOf e) d)))) k
          * projArr V c (ix3 b k (vcol e)) :=
  out1_eq V c b s e

end Cert.KernelIdeal.KValue

end
-- ==== Proof.KVal2.lean ====
/-
  The output projection kernel's output array after its eight grid points.

  Point t multiplies rows 512·t … 512·t + 511 of the flattened context by the whole output weight matrix and writes the
  product back as rows 512·t … 512·t + 511 of the output. So block t of the output is block t of ONE function of the two
  arrays the region is entered with — entry (r, e) the inner product of row r of the first with column e of the second —
  and the eight blocks tile the output: row r lies in the block of point r / 512.
-/
import proofs.«176619_j57303453663372_2_alg».proof.Proof.KIRegion2
import proofs.«176619_j57303453663372_2_alg».proof.Proof.PayMatmul
import Idealize.ShloMosaic.Lib.Pipeline.Value

set_option maxRecDepth 16384

noncomputable section

namespace Cert.KernelIdeal.KValue

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The flattened context the region is entered with, as an array of extended reals. -/
abbrev act2 (c : Dev nD) : S4096x1024.Idx → EReal := V c main_v11
/-- The weights the region is entered with. -/
abbrev wts2 (c : Dev nD) : S1024x1024.Idx → EReal := V c main_v12
/-- The output array after the region. -/
abbrev res2 (c : Dev nD) : S4096x1024.Idx → EReal := (dat2 (F := Ideal) V c).arrAt 2 cfg2.N

/-- The product of the two arrays, entry by entry. -/
def productOf2 (c : Dev nD) : S4096x1024.Idx → EReal := fun i =>
  ∑ k : Fin 1024, act2 V c (ix2 (⟨(i 0).val, (i 0).isLt⟩ : Fin 4096) k) * wts2 V c (ix2 k (⟨(i 1).val, (i 1).isLt⟩ : Fin 1024))

/-- The index maps over the grid: the row windows sit at block t, the weight window at block 0. -/
theorem block_index_of_point2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The rows block at point t is rows 512·t … of the flattened context. -/
theorem iblk2_0_apply (c : Dev nD) (t : Fin cfg2.N) (y : S512x1024.Idx) (i : S4096x1024.Idx)
    (h0 : (i 0).val = t.val * 512 + (y 0).val) (h1 : (i 1).val = (y 1).val) :
    iblk2 V c 0 t y = V c main_v11 i := by
  obtain ⟨e0, e1, -⟩ := block_index_of_point2 t
  unfold iblk2
  rw [View.read_apply]
  show V c main_v11 (((cfg2.win 0).blk t).view.emb y) = V c main_v11 i
  refine congrArg (V c main_v11) (funext fun a => Fin.ext ?_)
  match a with
  | ⟨0, _⟩ => show win2_0.index t (0 : Fin 2) * 512 + 1 * (y 0).val = (i 0).val; rw [e0, h0]; omega
  | ⟨1, _⟩ => show win2_0.index t (1 : Fin 2) * 1024 + 1 * (y 1).val = (i 1).val; rw [e1, h1]; omega

/-- The weight block at every point is the whole weight array. -/
theorem iblk2_1_apply (c : Dev nD) (t : Fin cfg2.N) (y : S1024x1024.Idx) (i : S1024x1024.Idx)
    (h0 : (i 0).val = (y 0).val) (h1 : (i 1).val = (y 1).val) :
    iblk2 V c 1 t y = V c main_v12 i := by
  obtain ⟨-, -, e0, e1, -⟩ := block_index_of_point2 t
  unfold iblk2
  rw [View.read_apply]
  show V c main_v12 (((cfg2.win 1).blk t).view.emb y) = V c main_v12 i
  refine congrArg (V c main_v12) (funext fun a => Fin.ext ?_)
  match a with
  | ⟨0, _⟩ => show win2_1.index t (0 : Fin 2) * 1024 + 1 * (y 0).val = (i 0).val; rw [e0, h0]; omega
  | ⟨1, _⟩ => show win2_1.index t (1 : Fin 2) * 1024 + 1 * (y 1).val = (i 1).val; rw [e1, h1]; omega

/-- What point t stores at (r, j) of its block is the product's entry (512·t + r, j). -/
theorem point_product2 (c : Dev nD) (t : Fin cfg2.N) (j : S512x1024.Idx) :
    k2_pay1 (F := Ideal) (iblk2 V c 0 t) (iblk2 V c 1 t) j = productOf2 V c (((cfg2.win 2).blk t).view.emb j) := by
  obtain ⟨-, -, -, -, e0, e1⟩ := block_index_of_point2 t
  obtain ⟨r, cc, rfl⟩ : ∃ (r : Fin 512) (cc : Fin 1024), j = ix2 r cc := ⟨j 0, j 1, eq_ix2 j⟩
  refine (Cert.KernelIdeal.PayValue.k2_pay1_apply (iblk2 V c 0 t) (iblk2 V c 1 t) r cc).trans ?_
  unfold productOf2
  refine Finset.sum_congr rfl fun k _ => ?_
  have hr : ((((cfg2.win 2).blk t).view.emb (ix2 r cc)) 0).val = t.val * 512 + r.val := by
    show win2_2.index t (0 : Fin 2) * 512 + 1 * r.val = _; rw [e0]; omega
  have hc : ((((cfg2.win 2).blk t).view.emb (ix2 r cc)) 1).val = cc.val := by
    show win2_2.index t (1 : Fin 2) * 1024 + 1 * cc.val = _; rw [e1]; omega
  exact congrArg₂ (· * ·) (iblk2_0_apply V c t (ix2 r k) _ hr rfl) (iblk2_1_apply V c t (ix2 k cc) _ rfl hc)

/-- WHAT POINT t WRITES BACK is block t of the product. -/
theorem written_back_is_block2 (c : Dev nD) (t : Fin cfg2.N) :
    (dat2 V c).flushed 2 t = ((cfg2.win 2).blk t).view.read (Elt Ideal) (productOf2 V c) := by
  show (cfg2.win 2).cut (grid2.coords t) ((dat2 V c).after 2 t) = _
  rw [after2_2]
  unfold out2_2
  rw [View.canon_unit_zero zero_offsets2]
  simp only [View.ld_unit_zero (S := S512x1024) zero_offsets2, View.ld_unit_zero (S := S1024x1024) zero_offsets2]
  funext j
  exact point_product2 V c t j

/-- An index of the output is in point t's block iff each coordinate is in the block's range on its axis. -/
theorem mem_block_iff2 (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v13).slice (win2_2.rect t)).set ↔ _
  rw [View.set_slice_whole, Rect.mem_set_unit]
  exact Iff.rfl

/-- Every row lies in some point's block: row r in that of point r / 512. -/
theorem blocks_cover_output (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  have hN : cfg2.N = 8 := N_2
  let t : Fin cfg2.N := ⟨(i 0).val / 512, by rw [hN]; omega⟩
  have ht : t.val = (i 0).val / 512 := rfl
  obtain ⟨-, -, -, -, e0, e1⟩ := block_index_of_point2 t
  refine ⟨t, flush2_2 t, ?_⟩
  rw [mem_block_iff2]
  intro a
  match a with
  | ⟨0, _⟩ => show win2_2.index t (0 : Fin 2) * 512 ≤ (i 0).val ∧ (i 0).val < win2_2.index t (0 : Fin 2) * 512 + 512; rw [e0, ht]; omega
  | ⟨1, _⟩ => show win2_2.index t (1 : Fin 2) * 1024 ≤ (i 1).val ∧ (i 1).val < win2_2.index t (1 : Fin 2) * 1024 + 1024; rw [e1]; omega

/-- THE ARRAY after the eight points is the product. -/
theorem output_array_eq (c : Dev nD) : (dat2 (F := Ideal) V c).arrAt 2 cfg2.N = productOf2 V c :=
  (dat2 V c).arrAt_eq_of_cover 2 (productOf2 V c) (fun t _ => written_back_is_block2 V c t) blocks_cover_output

/-- Entry (r, j) of the output projection kernel's output. -/
theorem out2_apply (c : Dev nD) (r : Fin 4096) (j : Fin 1024) :
    res2 V c (ix2 r j) = ∑ k : Fin 1024, act2 V c (ix2 r k) * wts2 V c (ix2 k j) := by
  show (dat2 (F := Ideal) V c).arrAt 2 cfg2.N (ix2 r j) = _
  rw [output_array_eq]
  rfl

end Cert.KernelIdeal.KValue

end
-- ==== Proof.KValue.lean ====
/-
  The kernel program's result array is attention with the logits scaled factor by factor.

  Walking the boundaries backwards: the result is a reshape of the output projection kernel's array, whose entry
  (b·2048 + s, e) is the inner product of row (b, s) of the flattened context with row e of Wo; the context is a
  reshape of the attention kernel's array, whose entry (b, s, c) is the softmax-weighted sum of column c of the value
  third of the projections, the logits being inner products over the 64 lanes of the head owning c, each query factor
  scaled by 1/8; and the projections' array, a reshape of the first kernel's output, holds x·Wqᵀ, x·Wkᵀ, x·Wvᵀ side by
  side in its three thirds, because the weight operand is the three transposed matrices concatenated along columns.
-/
import proofs.«176619_j57303453663372_2_alg».proof.Proof.KHost
import proofs.«176619_j57303453663372_2_alg».proof.Proof.KVal0
import proofs.«176619_j57303453663372_2_alg».proof.Proof.KVal1
import proofs.«176619_j57303453663372_2_alg».proof.Proof.KVal2
import proofs.«176619_j57303453663372_2_alg».proof.Proof.Spec

noncomputable section

namespace Cert.KernelIdeal.KValue

open Cert.KernelIdeal Cert.KernelIdeal.Hand
open Idealize.ShloMosaic Idealize.ShloMosaic.TcCoe Idealize.ShloMosaic.ValueIdx Idealize.SL.Sem
open Cert.Attn

variable (m : (ℓ : Loc nD τ sig) → Buf (Elt Ideal) ℓ) (ρ : Dev nD → PrngReg)

/-- The five argument arrays as functions into the extended reals. -/
abbrev argX (c : Dev nD) : (⟨3, ![2, 2048, 1024]⟩ : Shape).Idx → EReal := m ((c : Thread nD τ).loc main_arg0)
abbrev argQ (c : Dev nD) : (⟨2, ![1024, 1024]⟩ : Shape).Idx → EReal := m ((c : Thread nD τ).loc main_arg1)
abbrev argK (c : Dev nD) : (⟨2, ![1024, 1024]⟩ : Shape).Idx → EReal := m ((c : Thread nD τ).loc main_arg2)
abbrev argV (c : Dev nD) : (⟨2, ![1024, 1024]⟩ : Shape).Idx → EReal := m ((c : Thread nD τ).loc main_arg3)
abbrev argO (c : Dev nD) : (⟨2, ![1024, 1024]⟩ : Shape).Idx → EReal := m ((c : Thread nD τ).loc main_arg4)

/-- The projections' array [2, 2048, 3072] when the attention kernel is entered. -/
abbrev qkv (c : Dev nD) : (⟨3, ![2, 2048, 3072]⟩ : Shape).Idx → EReal := V3 m ρ c main_v9

/-- The query third of the projections' array is x·Wqᵀ. -/
theorem proj_q (c : Dev nD) (b : Fin 2) (s : Fin 2048) (e : Fin 1024) :
    qkv m ρ c (ix3 b s (qcol e)) = proj (argX m c) (argQ m c) b s e := by
  refine (qkv3 m ρ c b s (qcol e)).trans ?_
  refine (out0_apply (V1 m ρ) c _ (qcol e)).trans ?_
  unfold proj
  exact Finset.sum_congr rfl fun k _ => congrArg₂ (· * ·) (x_flat m ρ c b s k) (w_q m ρ c k e)

/-- The key third is x·Wkᵀ. -/
theorem proj_k (c : Dev nD) (b : Fin 2) (s : Fin 2048) (e : Fin 1024) :
    qkv m ρ c (ix3 b s (kcol e)) = proj (argX m c) (argK m c) b s e := by
  refine (qkv3 m ρ c b s (kcol e)).trans ?_
  refine (out0_apply (V1 m ρ) c _ (kcol e)).trans ?_
  unfold proj
  exact Finset.sum_congr rfl fun k _ => congrArg₂ (· * ·) (x_flat m ρ c b s k) (w_k m ρ c k e)

/-- The value third is x·Wvᵀ. -/
theorem proj_v (c : Dev nD) (b : Fin 2) (s : Fin 2048) (e : Fin 1024) :
    qkv m ρ c (ix3 b s (vcol e)) = proj (argX m c) (argV m c) b s e := by
  refine (qkv3 m ρ c b s (vcol e)).trans ?_
  refine (out0_apply (V1 m ρ) c _ (vcol e)).trans ?_
  unfold proj
  exact Finset.sum_congr rfl fun k _ => congrArg₂ (· * ·) (x_flat m ρ c b s k) (w_v m ρ c k e)

/-- The context array [2, 2048, 1024] the attention kernel leaves. -/
abbrev ctxArr (c : Dev nD) : (⟨3, ![2, 2048, 1024]⟩ : Shape).Idx → EReal := (dat1 (F := Ideal) (V3 m ρ) c).arrAt 3 cfg1.N

/-- The attention kernel's array is the context of the three projections, with the factor-by-factor logits. -/
theorem context (c : Dev nD) (b : Fin 2) (s : Fin 2048) (e : Fin 1024) :
    ctxArr m ρ c (ix3 b s e)
      = ctx (scoreK (proj (argX m c) (argQ m c)) (proj (argX m c) (argK m c))) (proj (argX m c) (argV m c)) b s e := by
  have h : ctxAt (qkv m ρ c) b s e
      = ctx (scoreK (proj (argX m c) (argQ m c)) (proj (argX m c) (argK m c))) (proj (argX m c) (argV m c)) b s e := by
    unfold ctxAt ctx scoreK
    refine Finset.sum_congr rfl fun k _ => ?_
    refine congrArg₂ (· * ·) ?_ (proj_v m ρ c b k e)
    exact congrArg (fun r => softmax r k) (funext fun k' => Finset.sum_congr rfl fun d _ =>
      congrArg₂ (· * ·) (congrArg (· * _) (proj_q m ρ c b s (col (headOf e) d))) (proj_k m ρ c b k' (col (headOf e) d)))
  exact (out1_eq (V3 m ρ) c b s e).trans h

/-- The result array [2, 2048, 1024] at the end of the program. -/
abbrev resArr (c : Dev nD) : (⟨3, ![2, 2048, 1024]⟩ : Shape).Idx → EReal := W7 m ρ c (Proc.devRef .tc main_v14)

/-- THE KERNEL'S VALUE: the result array, entry by entry, is attention with the logits scaled factor by factor. -/
theorem result_apply (c : Dev nD) (b : Fin 2) (s : Fin 2048) (e : Fin 1024) :
    resArr m ρ c (ix3 b s e) = attn scoreK (argX m c) (argQ m c) (argK m c) (argV m c) (argO m c) b s e := by
  refine (result3 m ρ c b s e).trans ?_
  refine (out2_apply (V5 m ρ) c _ e).trans ?_
  unfold attn outProj
  exact Finset.sum_congr rfl fun k _ => congrArg₂ (· * ·) ((ctx_flat m ρ c b s k).trans (context m ρ c b s k)) (w_o m ρ c k e)

end Cert.KernelIdeal.KValue

end
-- ==== Proof.RefProj.lean ====
/-
  The reference's three projections, head by head.

  Each of Q, K, V is computed as  x · Wᵀ  (entry (b, s, e) the inner product of row (b, s) of x with row e of W),
  reshaped from [2, 2048, 1024] to [2, 2048, 16, 64] and transposed to [2, 16, 2048, 64]. The reshape keeps the row-major
  position, so entry (b, s, h, d) of the reshaped array is entry (b, s, h·64 + d) of the projection; the transpose
  exchanges the sequence and head axes. Hence entry (b, h, q, d) of the head-split array is the projection at
  (b, q, h·64 + d).
-/
import proofs.«176619_j57303453663372_2_alg».proof.Proof.Gen.ReferenceIdeal.Read
import proofs.«176619_j57303453663372_2_alg».proof.Proof.Spec

noncomputable section

namespace Cert.ReferenceIdeal.RefValue

open Cert.ReferenceIdeal Cert.ReferenceIdeal.Read Idealize.ShloMosaic Idealize.ShloMosaic.ValueIdx Cert.Attn

/-- Position (b, h, q, d) of a head-split array, carried back through the transpose and the reshape, is position
    (b, q, h·64 + d) of the projection: ((b·2048 + q)·16 + h)·64 + d = (b·2048 + q)·1024 + (h·64 + d). -/
theorem split_index (b : Fin 2) (h : Fin 16) (q : Fin 2048) (d : Fin 64) :
    idx_main_v1 (idx_main_v2 (ix4 b h q d)) = ix3 b q (col h d) := by
  have hb := b.isLt; have hh := h.isLt; have hq := q.isLt; have hd := d.isLt
  funext a
  refine Fin.ext ?_
  match a with
  | ⟨0, _⟩ => show (((b.val * 2048 + q.val) * 16 + h.val) * 64 + d.val) / 2097152 = b.val; omega
  | ⟨1, _⟩ => show (((b.val * 2048 + q.val) * 16 + h.val) * 64 + d.val) / 1024 % 2048 = q.val; omega
  | ⟨2, _⟩ => show (((b.val * 2048 + q.val) * 16 + h.val) * 64 + d.val) % 1024 = h.val * 64 + d.val; omega

/-- The first product  x · Wᵀ  at (b, s, e) is the specification's projection. -/
theorem v0_apply (x0 : (⟨S2x2048x1024, .f32⟩ : BufTy).Contents (Elt Ideal)) (W : (⟨S1024x1024, .f32⟩ : BufTy).Contents (Elt Ideal))
    (b : Fin 2) (s : Fin 2048) (e : Fin 1024) :
    val_main_v0 (F := Ideal) x0 W (ix3 b s e) = proj x0 W b s e := by
  rw [val_main_v0_apply]
  unfold proj
  refine Finset.sum_congr rfl fun k _ => ?_
  exact congrArg₂ (· * ·)
    (congrArg x0 (funext fun a => Fin.ext (by match a with | ⟨0, _⟩ => rfl | ⟨1, _⟩ => rfl | ⟨2, _⟩ => rfl)))
    (congrArg W (funext fun a => Fin.ext (by match a with | ⟨0, _⟩ => rfl | ⟨1, _⟩ => rfl)))

/-- The second product (the keys'). -/
theorem v3_apply (x0 : (⟨S2x2048x1024, .f32⟩ : BufTy).Contents (Elt Ideal)) (W : (⟨S1024x1024, .f32⟩ : BufTy).Contents (Elt Ideal))
    (b : Fin 2) (s : Fin 2048) (e : Fin 1024) :
    val_main_v3 (F := Ideal) x0 W (ix3 b s e) = proj x0 W b s e := by
  rw [val_main_v3_apply]
  unfold proj
  refine Finset.sum_congr rfl fun k _ => ?_
  exact congrArg₂ (· * ·)
    (congrArg x0 (funext fun a => Fin.ext (by match a with | ⟨0, _⟩ => rfl | ⟨1, _⟩ => rfl | ⟨2, _⟩ => rfl)))
    (congrArg W (funext fun a => Fin.ext (by match a with | ⟨0, _⟩ => rfl | ⟨1, _⟩ => rfl)))

/-- The third product (the values'). -/
theorem v6_apply (x0 : (⟨S2x2048x1024, .f32⟩ : BufTy).Contents (Elt Ideal)) (W : (⟨S1024x1024, .f32⟩ : BufTy).Contents (Elt Ideal))
    (b : Fin 2) (s : Fin 2048) (e : Fin 1024) :
    val_main_v6 (F := Ideal) x0 W (ix3 b s e) = proj x0 W b s e := by
  rw [val_main_v6_apply]
  unfold proj
  refine Finset.sum_congr rfl fun k _ => ?_
  exact congrArg₂ (· * ·)
    (congrArg x0 (funext fun a => Fin.ext (by match a with | ⟨0, _⟩ => rfl | ⟨1, _⟩ => rfl | ⟨2, _⟩ => rfl)))
    (congrArg W (funext fun a => Fin.ext (by match a with | ⟨0, _⟩ => rfl | ⟨1, _⟩ => rfl)))

/-- The queries, head-split: entry (b, h, q, d) is the query projection at (b, q, h·64 + d). -/
theorem v2_apply (x0 : (⟨S2x2048x1024, .f32⟩ : BufTy).Contents (Elt Ideal)) (W : (⟨S1024x1024, .f32⟩ : BufTy).Contents (Elt Ideal))
    (b : Fin 2) (h : Fin 16) (q : Fin 2048) (d : Fin 64) :
    val_main_v2 (F := Ideal) x0 W (ix4 b h q d) = proj x0 W b q (col h d) := by
  rw [val_main_v2_apply, val_main_v1_apply]
  exact (congrArg (val_main_v0 (F := Ideal) x0 W) (split_index b h q d)).trans (v0_apply x0 W b q (col h d))

/-- The keys, head-split. -/
theorem v5_apply (x0 : (⟨S2x2048x1024, .f32⟩ : BufTy).Contents (Elt Ideal)) (W : (⟨S1024x1024, .f32⟩ : BufTy).Contents (Elt Ideal))
    (b : Fin 2) (h : Fin 16) (q : Fin 2048) (d : Fin 64) :
    val_main_v5 (F := Ideal) x0 W (ix4 b h q d) = proj x0 W b q (col h d) := by
  rw [val_main_v5_apply, val_main_v4_apply]
  exact (congrArg (val_main_v3 (F := Ideal) x0 W) (split_index b h q d)).trans (v3_apply x0 W b q (col h d))

/-- The values, head-split. -/
theorem v8_apply (x0 : (⟨S2x2048x1024, .f32⟩ : BufTy).Contents (Elt Ideal)) (W : (⟨S1024x1024, .f32⟩ : BufTy).Contents (Elt Ideal))
    (b : Fin 2) (h : Fin 16) (q : Fin 2048) (d : Fin 64) :
    val_main_v8 (F := Ideal) x0 W (ix4 b h q d) = proj x0 W b q (col h d) := by
  rw [val_main_v8_apply, val_main_v7_apply]
  exact (congrArg (val_main_v6 (F := Ideal) x0 W) (split_index b h q d)).trans (v6_apply x0 W b q (col h d))

end Cert.ReferenceIdeal.RefValue

end
-- ==== Proof.RefScores.lean ====
/-
  The reference's logits.

  For batch b and head h, the logit of query row q against key row k is the inner product over the head's 64 lanes of
  the head-split queries and keys, divided by the square root of the constant 64: exactly the specification's
  `scoreR` of the two projections.
-/
import proofs.«176619_j57303453663372_2_alg».proof.Proof.RefProj

noncomputable section

namespace Cert.ReferenceIdeal.RefValue

open Cert.ReferenceIdeal Cert.ReferenceIdeal.Read Idealize.ShloMosaic Idealize.ShloMosaic.ValueIdx Cert.Attn

/-- The logits at (b, h, q, k): (∑_d Q[b, q, h·64 + d] · K[b, k, h·64 + d]) / √64. -/
theorem v12_apply (x0 : (⟨S2x2048x1024, .f32⟩ : BufTy).Contents (Elt Ideal)) (x1 x2 : (⟨S1024x1024, .f32⟩ : BufTy).Contents (Elt Ideal))
    (b : Fin 2) (h : Fin 16) (q k : Fin 2048) :
    val_main_v12 (F := Ideal) x0 x1 x2 (ix4 b h q k) = scoreR (proj x0 x1) (proj x0 x2) b h q k := by
  rw [val_main_v12_apply, val_main_v9_apply, val_main_v11_apply, val_main_v10_apply, val_main_cst_apply]
  unfold scoreR
  simp only [Ideal.hostDivf_def, Ideal.hostUnary_sqrt_def, Ideal.ofBits_def]
  refine congrArg (fun t => Ideal.div t _) (Finset.sum_congr rfl fun d _ => ?_)
  have el : lidx_main_v9 (ix4 b h q k) d = ix4 b h q d :=
    funext fun a => Fin.ext (by match a with | ⟨0, _⟩ => rfl | ⟨1, _⟩ => rfl | ⟨2, _⟩ => rfl | ⟨3, _⟩ => rfl)
  have er : ridx_main_v9 (ix4 b h q k) d = ix4 b h k d :=
    funext fun a => Fin.ext (by match a with | ⟨0, _⟩ => rfl | ⟨1, _⟩ => rfl | ⟨2, _⟩ => rfl | ⟨3, _⟩ => rfl)
  rw [el, er, v2_apply, v5_apply]

end Cert.ReferenceIdeal.RefValue

end
-- ==== Proof.RefSoftmax.lean ====
/-
  The reference's softmax over each row of logits.

  From the logits L the reference takes, for every (b, h, q), the maximum over the key axis (a fold of max from −∞),
  joins it with −∞ once more (which changes nothing), subtracts it from the row, exponentiates, sums the row (from 0),
  and divides. At (b, h, q, k) this is the specification's `softmax` of the row  k' ↦ L[b, h, q, k'].
  This module does not open the logits: it is stated over whatever the logits' stage holds.
-/
import proofs.«176619_j57303453663372_2_alg».proof.Proof.Gen.ReferenceIdeal.Read
import proofs.«176619_j57303453663372_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn

/-- The f32 pattern 0xFF800000 denotes −∞. -/
theorem negInf_eq : Ideal.ofBits .f32 0xFF800000#32 = (⊥ : EReal) := by
  simp [Ideal.ofBits, Ideal.ieee]

/-- The reduced index (b, h, q) with key coordinate k put back is (b, h, q, k). -/
theorem lift_key (hr : S2x16x2048x2048.Reduces [3] S2x16x2048) (b : Fin 2) (h : Fin 16) (q : Fin 2048)
    (k : Fin (S2x16x2048x2048.size 3)) : hr.lift (ix3 b h q) k = ix4 b h q (⟨k.val, k.isLt⟩ : Fin 2048) := by
  funext c; apply Fin.ext
  fin_cases c <;> rfl

/-- The row maximum at (b, h, q): the fold of max from −∞ over the row's 2048 logits. -/
theorem v14_apply (x0 : (⟨S2x2048x1024, .f32⟩ : BufTy).Contents (Elt Ideal)) (x1 x2 : (⟨S1024x1024, .f32⟩ : BufTy).Contents (Elt Ideal))
    (b : Fin 2) (h : Fin 16) (q : Fin 2048) :
    val_main_v14 (F := Ideal) x0 x1 x2 (ix3 b h q)
      = rowMax (fun k => val_main_v12 (F := Ideal) x0 x1 x2 (ix4 b h q k)) := by
  unfold val_main_v14
  generalize val_main_v12 (F := Ideal) x0 x1 x2 = y
  have hr : S2x16x2048x2048.Reduces [3] S2x16x2048 := by decide
  refine (Host.reduce_eq_fold_single (FloatOps.maximumf (F := Ideal) (φ := .f32)) y (val_main_cst_1 (F := Ideal))
    reducesTo_S2x16x2048x2048_S2x16x2048_d3 hr h_S_ (ix3 b h q)).trans ?_
  unfold rowMax
  have hinit : (val_main_cst_1 (F := Ideal)) (Shape.Idx.first h_S_) = (⊥ : EReal) := by
    rw [val_main_cst_1_apply]; exact negInf_eq
  have hf : (y ∘ hr.lift (ix3 b h q)) = fun k : Fin 2048 => y (ix4 b h q k) :=
    funext fun k => congrArg y (lift_key hr b h q k)
  rw [hinit]
  exact congrArg (fun f => Finset.fold max (⊥ : EReal) f (Finset.univ : Finset (Fin 2048))) hf

/-- Joining the row maximum with −∞ leaves it as it is. -/
theorem v16_apply (x0 : (⟨S2x2048x1024, .f32⟩ : BufTy).Contents (Elt Ideal)) (x1 x2 : (⟨S1024x1024, .f32⟩ : BufTy).Contents (Elt Ideal))
    (b : Fin 2) (h : Fin 16) (q : Fin 2048) :
    val_main_v16 (F := Ideal) x0 x1 x2 (ix3 b h q)
      = rowMax (fun k => val_main_v12 (F := Ideal) x0 x1 x2 (ix4 b h q k)) := by
  rw [val_main_v16_apply, val_main_v15_apply, val_main_cst_2_apply, v14_apply]
  simp only [Ideal.maximumf_def, Ideal.ofBits_def]
  rw [negInf_eq]
  exact max_eq_right bot_le

/-- The row maximum broadcast back along the key axis. -/
theorem v18_apply (x0 : (⟨S2x2048x1024, .f32⟩ : BufTy).Contents (Elt Ideal)) (x1 x2 : (⟨S1024x1024, .f32⟩ : BufTy).Contents (Elt Ideal))
    (b : Fin 2) (h : Fin 16) (q k : Fin 2048) :
    val_main_v18 (F := Ideal) x0 x1 x2 (ix4 b h q k)
      = rowMax (fun k' => val_main_v12 (F := Ideal) x0 x1 x2 (ix4 b h q k')) := by
  rw [val_main_v18_apply, val_main_v17_apply]
  have e : idx_main_v17 (idx_main_v18 (ix4 b h q k)) = ix3 b h q :=
    funext fun a => Fin.ext (by match a with | ⟨0, _⟩ => rfl | ⟨1, _⟩ => rfl | ⟨2, _⟩ => rfl)
  rw [e, v16_apply]

/-- The exponential of a logit less its row's maximum. -/
theorem v20_apply (x0 : (⟨S2x2048x1024, .f32⟩ : BufTy).Contents (Elt Ideal)) (x1 x2 : (⟨S1024x1024, .f32⟩ : BufTy).Contents (Elt Ideal))
    (b : Fin 2) (h : Fin 16) (q k : Fin 2048) :
    val_main_v20 (F := Ideal) x0 x1 x2 (ix4 b h q k)
      = Ideal.exp (val_main_v12 (F := Ideal) x0 x1 x2 (ix4 b h q k)
          - rowMax (fun k' => val_main_v12 (F := Ideal) x0 x1 x2 (ix4 b h q k'))) := by
  rw [val_main_v20_apply, val_main_v19_apply, v18_apply]
  simp only [Ideal.hostUnary_exp_def, Ideal.subf_def]

/-- The row's sum of exponentials (the sum starts from the pattern of 0). -/
theorem v21_apply (x0 : (⟨S2x2048x1024, .f32⟩ : BufTy).Contents (Elt Ideal)) (x1 x2 : (⟨S1024x1024, .f32⟩ : BufTy).Contents (Elt Ideal))
    (b : Fin 2) (h : Fin 16) (q : Fin 2048) :
    val_main_v21 (F := Ideal) x0 x1 x2 (ix3 b h q)
      = ∑ k : Fin 2048, Ideal.exp (val_main_v12 (F := Ideal) x0 x1 x2 (ix4 b h q k)
          - rowMax (fun k' => val_main_v12 (F := Ideal) x0 x1 x2 (ix4 b h q k'))) := by
  rw [val_main_v21_apply, val_main_cst_3_apply]
  simp only [Ideal.ofBits_def]
  rw [Ideal.ofBits_zero_f32, zero_add]
  refine Finset.sum_congr rfl fun k _ => ?_
  have e : idx_main_v21 (ix3 b h q) k = ix4 b h q k :=
    funext fun a => Fin.ext (by match a with | ⟨0, _⟩ => rfl | ⟨1, _⟩ => rfl | ⟨2, _⟩ => rfl | ⟨3, _⟩ => rfl)
  rw [e, v20_apply]

/-- The normalised weights at (b, h, q, k): the softmax of the row of logits, at k. -/
theorem v24_apply (x0 : (⟨S2x2048x1024, .f32⟩ : BufTy).Contents (Elt Ideal)) (x1 x2 : (⟨S1024x1024, .f32⟩ : BufTy).Contents (Elt Ideal))
    (b : Fin 2) (h : Fin 16) (q k : Fin 2048) :
    val_main_v24 (F := Ideal) x0 x1 x2 (ix4 b h q k)
      = softmax (fun k' => val_main_v12 (F := Ideal) x0 x1 x2 (ix4 b h q k')) k := by
  rw [val_main_v24_apply, val_main_v23_apply, val_main_v22_apply]
  have e : idx_main_v22 (idx_main_v23 (ix4 b h q k)) = ix3 b h q :=
    funext fun a => Fin.ext (by match a with | ⟨0, _⟩ => rfl | ⟨1, _⟩ => rfl | ⟨2, _⟩ => rfl)
  rw [e, v21_apply, v20_apply]
  simp only [Ideal.hostDivf_def]
  rfl

end Cert.ReferenceIdeal.RefValue

end
-- ==== Proof.RefCtx.lean ====
/-
  The reference's context.

  Per head, the weights [b, h, q, ·] are contracted with the head's slice of the values: entry (b, h, q, d) is
  ∑_k weight[b, h, q, k] · V[b, k, h·64 + d]. The heads are then put side by side again: a transpose back to
  [2, 2048, 16, 64] and a reshape to [2, 2048, 1024], so column c of the result comes from head c / 64, lane c % 64,
  and (c / 64)·64 + c % 64 = c. This is the specification's `ctx` of the logits `scoreR` and the value projection.
-/
import proofs.«176619_j57303453663372_2_alg».proof.Proof.RefScores
import proofs.«176619_j57303453663372_2_alg».proof.Proof.RefSoftmax

noncomputable section

namespace Cert.ReferenceIdeal.RefValue

open Cert.ReferenceIdeal Cert.ReferenceIdeal.Read Idealize.ShloMosaic Idealize.ShloMosaic.ValueIdx Cert.Attn

/-- The weights at (b, h, q, k) are the softmax of the row of logits `scoreR`. -/
theorem weights_apply (x0 : (⟨S2x2048x1024, .f32⟩ : BufTy).Contents (Elt Ideal)) (x1 x2 : (⟨S1024x1024, .f32⟩ : BufTy).Contents (Elt Ideal))
    (b : Fin 2) (h : Fin 16) (q k : Fin 2048) :
    val_main_v24 (F := Ideal) x0 x1 x2 (ix4 b h q k) = softmax (scoreR (proj x0 x1) (proj x0 x2) b h q) k := by
  rw [v24_apply]
  exact congrArg (fun r => softmax r k) (funext fun k' => v12_apply x0 x1 x2 b h q k')

/-- The per-head context at (b, h, q, d). -/
theorem v25_apply (x0 : (⟨S2x2048x1024, .f32⟩ : BufTy).Contents (Elt Ideal)) (x1 x2 x3 : (⟨S1024x1024, .f32⟩ : BufTy).Contents (Elt Ideal))
    (b : Fin 2) (h : Fin 16) (q : Fin 2048) (d : Fin 64) :
    val_main_v25 (F := Ideal) x0 x1 x2 x3 (ix4 b h q d)
      = ∑ k : Fin 2048, softmax (scoreR (proj x0 x1) (proj x0 x2) b h q) k * proj x0 x3 b k (col h d) := by
  rw [val_main_v25_apply]
  refine Finset.sum_congr rfl fun k _ => ?_
  have el : lidx_main_v25 (ix4 b h q d) k = ix4 b h q k :=
    funext fun a => Fin.ext (by match a with | ⟨0, _⟩ => rfl | ⟨1, _⟩ => rfl | ⟨2, _⟩ => rfl | ⟨3, _⟩ => rfl)
  have er : ridx_main_v25 (ix4 b h q d) k = ix4 b h k d :=
    funext fun a => Fin.ext (by match a with | ⟨0, _⟩ => rfl | ⟨1, _⟩ => rfl | ⟨2, _⟩ => rfl | ⟨3, _⟩ => rfl)
  rw [el, er, weights_apply, v8_apply]

/-- The lane of column c inside its head. -/
def laneOf (c : Fin 1024) : Fin 64 := ⟨c.val % 64, Nat.mod_lt _ (by decide)⟩

/-- Column c is lane c % 64 of head c / 64. -/
theorem col_headOf (c : Fin 1024) : col (headOf c) (laneOf c) = c :=
  Fin.ext (by show c.val / 64 * 64 + c.val % 64 = c.val; omega)

/-- Position (b, s, c) of the merged array, carried back through the reshape and the transpose, is position
    (b, c / 64, s, c % 64) of the per-head context. -/
theorem merge_index (b : Fin 2) (s : Fin 2048) (c : Fin 1024) :
    idx_main_v26 (idx_main_v27 (ix3 b s c)) = ix4 b (headOf c) s (laneOf c) := by
  have hb := b.isLt; have hs := s.isLt; have hc := c.isLt
  funext a
  refine Fin.ext ?_
  match a with
  | ⟨0, _⟩ => show ((b.val * 2048 + s.val) * 1024 + c.val) / 2097152 = b.val; omega
  | ⟨1, _⟩ => show ((b.val * 2048 + s.val) * 1024 + c.val) / 64 % 16 = c.val / 64; omega
  | ⟨2, _⟩ => show ((b.val * 2048 + s.val) * 1024 + c.val) / 1024 % 2048 = s.val; omega
  | ⟨3, _⟩ => show ((b.val * 2048 + s.val) * 1024 + c.val) % 64 = c.val % 64; omega

/-- The merged context at (b, s, c) is the specification's context. -/
theorem v27_apply (x0 : (⟨S2x2048x1024, .f32⟩ : BufTy).Contents (Elt Ideal)) (x1 x2 x3 : (⟨S1024x1024, .f32⟩ : BufTy).Contents (Elt Ideal))
    (b : Fin 2) (s : Fin 2048) (c : Fin 1024) :
    val_main_v27 (F := Ideal) x0 x1 x2 x3 (ix3 b s c)
      = ctx (scoreR (proj x0 x1) (proj x0 x2)) (proj x0 x3) b s c := by
  rw [val_main_v27_apply, val_main_v26_apply, merge_index, v25_apply, col_headOf]
  rfl

end Cert.ReferenceIdeal.RefValue

end
-- ==== Proof.RefValue.lean ====
/-
  The reference's result is the specification's attention with the logits `scoreR`.

  The last operation is the output projection: entry (b, s, e) is the inner product of row (b, s) of the merged context
  with row e of the output weights.
-/
import proofs.«176619_j57303453663372_2_alg».proof.Proof.RefCtx

noncomputable section

namespace Cert.ReferenceIdeal.RefValue

open Cert.ReferenceIdeal Cert.ReferenceIdeal.Read Idealize.ShloMosaic Idealize.ShloMosaic.ValueIdx Cert.Attn

/-- The reference's result at (b, s, e). -/
theorem result_apply (x0 : (⟨S2x2048x1024, .f32⟩ : BufTy).Contents (Elt Ideal))
    (x1 x2 x3 x4 : (⟨S1024x1024, .f32⟩ : BufTy).Contents (Elt Ideal)) (b : Fin 2) (s : Fin 2048) (e : Fin 1024) :
    Cert.ReferenceIdeal.Read.val_main_v28 (F := Ideal) x0 x1 x2 x3 x4 (ValueIdx.ix3 b s e)
      = Cert.Attn.attn Cert.Attn.scoreR x0 x1 x2 x3 x4 b s e := by
  rw [val_main_v28_apply]
  unfold attn outProj
  refine Finset.sum_congr rfl fun c _ => ?_
  have el : lidx_main_v28 (ix3 b s e) c = ix3 b s c :=
    funext fun a => Fin.ext (by match a with | ⟨0, _⟩ => rfl | ⟨1, _⟩ => rfl | ⟨2, _⟩ => rfl)
  have er : ridx_main_v28 (ix3 b s e) c = ix2 e c :=
    funext fun a => Fin.ext (by match a with | ⟨0, _⟩ => rfl | ⟨1, _⟩ => rfl)
  rw [el, er, v27_apply]

end Cert.ReferenceIdeal.RefValue

end
-- ==== Proof.Algebra.lean ====
/-
  The two ways of scaling the logits agree on real-valued projections.

  With every factor a real number,  ∑_d (q_d · 1/8) · k_d = (∑_d q_d · k_d) / 8 :  the finite sum of reals is a real,
  the factor 1/8 moves out of the sum, and dividing by the real 8 is multiplying by its reciprocal.
  The two constants are read once here: the bf16 pattern 0x3E00 denotes 1/8, and the f32 pattern 0x42800000 denotes 64,
  whose square root is 8.
-/
import proofs.«176619_j57303453663372_2_alg».proof.Proof.Spec

noncomputable section

namespace Cert.Attn

open Idealize.ShloMosaic Idealize.ShloMosaic.ValueIdx

/-- The bf16 pattern 0x3E00 denotes 1/8. -/
theorem scale_eq : Ideal.ofBits .bf16 0x3E00#16 = ((1 / 8 : ℝ) : EReal) := by
  simp [Ideal.ofBits, Ideal.ieee, -EReal.coe_mul]; norm_num

/-- The f32 pattern 0x42800000 denotes 64. -/
theorem sixtyfour_eq : Ideal.ofBits .f32 0x42800000#32 = ((64 : ℝ) : EReal) := by
  simp [Ideal.ofBits, Ideal.ieee, -EReal.coe_mul]; norm_num

/-- √64 = 8. -/
theorem sqrt64_eq : Ideal.sqrt (Ideal.ofBits .f32 0x42800000#32) = ((8 : ℝ) : EReal) := by
  rw [sixtyfour_eq, Ideal.sqrt_coe, if_neg (by norm_num)]
  refine congrArg _ ?_
  rw [show (64 : ℝ) = 8 ^ 2 by norm_num]
  exact Real.sqrt_sq (by norm_num)

/-- A finite sum of reals, read in the extended reals, is the sum of the coerced terms. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A projection of real data by a real matrix is real at every entry. -/
theorem proj_real (x : (⟨3, ![2, 2048, 1024]⟩ : Shape).Idx → EReal) (W : (⟨2, ![1024, 1024]⟩ : Shape).Idx → EReal)
    (hx : ∀ i, ∃ r : ℝ, x i = (r : EReal)) (hW : ∀ i, ∃ r : ℝ, W i = (r : EReal)) :
    ∀ b s e, ∃ r : ℝ, proj x W b s e = (r : EReal) := by
  choose fx hfx using hx
  choose fW hfW using hW
  intro b s e
  refine ⟨∑ d : Fin 1024, fx (ix3 b s d) * fW (ix2 e d), ?_⟩
  unfold proj
  rw [coe_sum]
  refine Finset.sum_congr rfl fun d _ => ?_
  rw [hfx, hfW, EReal.coe_mul]

/-- On real projections, scaling every factor of the query by 1/8 gives the inner product divided by √64. -/
theorem scoreK_eq_scoreR (Q K : Act) (hQ : ∀ b s e, ∃ r : ℝ, Q b s e = (r : EReal))
    (hK : ∀ b s e, ∃ r : ℝ, K b s e = (r : EReal)) : scoreK Q K = scoreR Q K := by
  choose fq hfq using hQ
  choose fk hfk using hK
  funext b h q k
  unfold scoreK scoreR
  rw [sqrt64_eq, Ideal.div_coe (by norm_num), scale_eq]
  have h1 : (∑ d : Fin 64, Q b q (col h d) * K b k (col h d))
      = ((∑ d : Fin 64, fq b q (col h d) * fk b k (col h d) : ℝ) : EReal) := by
    rw [coe_sum]
    refine Finset.sum_congr rfl fun d _ => ?_
    rw [hfq, hfk, EReal.coe_mul]
  have h2 : (∑ d : Fin 64, (Q b q (col h d) * ((1 / 8 : ℝ) : EReal)) * K b k (col h d))
      = ((∑ d : Fin 64, (fq b q (col h d) * (1 / 8)) * fk b k (col h d) : ℝ) : EReal) := by
    rw [coe_sum]
    refine Finset.sum_congr rfl fun d _ => ?_
    rw [hfq, hfk, EReal.coe_mul, EReal.coe_mul]
  rw [h1, h2, ← EReal.coe_mul]
  refine congrArg _ ?_
  rw [Finset.sum_mul]
  refine Finset.sum_congr rfl fun d _ => ?_
  ring

/-- Attention with either scaling of the logits is the same function of real inputs. -/
theorem attn_scoreK_eq (x : (⟨3, ![2, 2048, 1024]⟩ : Shape).Idx → EReal)
    (Wq Wk Wv Wo : (⟨2, ![1024, 1024]⟩ : Shape).Idx → EReal)
    (hx : ∀ i, ∃ r : ℝ, x i = (r : EReal)) (hq : ∀ i, ∃ r : ℝ, Wq i = (r : EReal))
    (hk : ∀ i, ∃ r : ℝ, Wk i = (r : EReal)) :
    attn scoreK x Wq Wk Wv Wo = attn scoreR x Wq Wk Wv Wo := by
  unfold attn
  rw [scoreK_eq_scoreR _ _ (proj_real x Wq hx hq) (proj_real x Wk hx hk)]

end Cert.Attn

end
-- ==== Proof.Finite.lean ====
/-
  From the precondition to "every input entry is a real number".

  The precondition is the conjunction, over the five argument arrays, of  all(|a| < +∞).  Each `all` is a reduction by
  `and` from 1 into a single result, so it is 1 only if every compared element is 1; and  max(a, −a) < +∞  in the
  extended reals excludes both infinities: a is the coercion of a real.
-/
import proofs.«176619_j57303453663372_2_alg».proof.Defs
import proofs.«176619_j57303453663372_2_alg».proof.Proof.Gen.Pre_finite_inputs
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- The f32 pattern 0x7F800000 denotes +∞. -/
theorem posInf_eq : Ideal.ofBits .f32 0x7F800000#32 = (⊤ : EReal) := by
  simp [Ideal.ofBits, Ideal.ieee]

/-- An extended real whose absolute value is below +∞ is a real. -/
theorem real_of_abs_lt (a : EReal)
    (h : Ideal.cmp .olt (max a (-a)) (Ideal.ofBits .f32 0x7F800000#32) = 1#1) : ∃ r : ℝ, a = (r : EReal) := by
  rw [posInf_eq] at h
  induction a using EReal.rec with
  | bot => simp [Ideal.cmp] at h
  | coe r => exact ⟨r, rfl⟩
  | top => simp [Ideal.cmp] at h

/-- One conjunct of the precondition: `all(|a| < +∞)` over an array says every entry is real. -/
theorem real_of_all {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = (r : EReal) :=
  real_of_abs_lt (a i) (Host.reduce_andi_all _ _ hr hu ValueIdx.ix0 h i)

/-- The precondition `finite_inputs`, all ones, says every entry of every argument array is a real number. -/
theorem of_fn [Cert.Pre_finite_inputs.Facts] (x : FVec Ideal S2x2048x1024 .f32) (w1 w2 w3 w4 : FVec Ideal S1024x1024 .f32)
    (h : Cert.Pre_finite_inputs.fn (F := Ideal) x w1 w2 w3 w4 = (fun _ => 1#1)) :
    (∀ i, ∃ r : ℝ, x i = (r : EReal)) ∧ (∀ i, ∃ r : ℝ, w1 i = (r : EReal)) ∧ (∀ i, ∃ r : ℝ, w2 i = (r : EReal))
      ∧ (∀ i, ∃ r : ℝ, w3 i = (r : EReal)) ∧ (∀ i, ∃ r : ℝ, w4 i = (r : EReal)) := by
  have e := congrFun h ValueIdx.ix0
  dsimp only [Cert.Pre_finite_inputs.fn, Cert.Pre_finite_inputs.fn_part1] at e
  simp only [andi, IntOp.andi_eq_one] at e
  obtain ⟨⟨⟨⟨h0, h1⟩, h2⟩, h3⟩, h4⟩ := e
  exact ⟨real_of_all x _ _ _ h0, real_of_all w1 _ _ _ h1, real_of_all w2 _ _ _ h2, real_of_all w3 _ _ _ h3,
    real_of_all w4 _ _ _ h4⟩

end Cert.Finite

end
-- ==== Proof.lean ====
/-
  Multi-head attention on TPU against its jnp reference, on the extended reals.

  The kernel program is three kernel launches among host operations: x·[Wq | Wk | Wv]ᵀ as one tiled matrix product;
  softmax attention over pairs of heads, reading the query, key and value thirds of that product through three
  windows of one array; and the output projection. Its frame (at the word-level and at the ideal instance) is the run
  of seven segments whose thread states chain from the launch memory to the last boundary, each kernel's body run
  symbolically at a generic grid point; the same run names the result array's contents.

  At the ideal instance that array is, entry by entry, attention with every factor of a query scaled by 1/8 before the
  inner product with a key; the reference's result is attention with the finished inner product divided by √64 = 8.
  The two logits agree when the projections are real numbers — multiplication distributes over a finite sum of reals —
  and the projections of finite inputs are real; everything after the logits (row maximum, exponentials, normalisation,
  the two remaining products) is one function of them. No operation was rewritten by the idealisation, so there is
  nothing to preserve beyond the program's own text.
-/
import proofs.«176619_j57303453663372_2_alg».proof.Defs
import proofs.«176619_j57303453663372_2_alg».proof.Proof.Gen.Kernel
import proofs.«176619_j57303453663372_2_alg».proof.Proof.Gen.KernelIdeal
import proofs.«176619_j57303453663372_2_alg».proof.Proof.Gen.ReferenceIdeal
import proofs.«176619_j57303453663372_2_alg».proof.Proof.Gen.Pre_finite_inputs
import proofs.«176619_j57303453663372_2_alg».proof.Proof.Gen.ReferenceIdeal.Run
import proofs.«176619_j57303453663372_2_alg».proof.Proof.Gen.ReferenceIdeal.Read
import proofs.«176619_j57303453663372_2_alg».proof.Proof.KRun
import proofs.«176619_j57303453663372_2_alg».proof.Proof.KIRun
import proofs.«176619_j57303453663372_2_alg».proof.Proof.KValue
import proofs.«176619_j57303453663372_2_alg».proof.Proof.RefValue
import proofs.«176619_j57303453663372_2_alg».proof.Proof.Algebra
import proofs.«176619_j57303453663372_2_alg».proof.Proof.Finite
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the program read at the ideal instance. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the same result array: attention of the same arguments, the two spellings of the logits
    equal because the projections of finite inputs are real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W7 (F := Ideal) m ρ c (Proc.devRef .tc Cert.KernelIdeal.main_v14),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hq, hk, -, -⟩ := Cert.Finite.of_fn _ _ _ _ _ (hpre c)
  rw [Cert.ReferenceIdeal.Read.val_main_v28_eq m' c, (hagree c).1, (hagree c).2.1, (hagree c).2.2.1, (hagree c).2.2.2.1, (hagree c).2.2.2.2]
  funext i
  obtain ⟨b, s, e, rfl⟩ : ∃ (b : Fin 2) (s : Fin 2048) (e : Fin 1024), i = ValueIdx.ix3 b s e := ⟨i 0, i 1, i 2, ValueIdx.eq_ix3 i⟩
  rw [Cert.ReferenceIdeal.RefValue.result_apply]
  refine Eq.trans ?_ (Cert.KernelIdeal.KValue.result_apply m ρ c b s e).symm
  exact (congrFun (congrFun (congrFun (Cert.Attn.attn_scoreK_eq _ _ _ _ _ hx hq hk) b) s) e).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
